-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x1024x64 : Shape := ⟨4, ![2, 16, 1024, 64]⟩
abbrev S2047x1024 : Shape := ⟨2, ![2047, 1024]⟩
abbrev S1024x1024 : Shape := ⟨2, ![1024, 1024]⟩
abbrev S_ : Shape := ⟨0, ![]⟩

class Facts : Prop where
  bcast_S_S2x16x1024x64 : S_.BroadcastsInDim S2x16x1024x64 (![] : Fin 0 → Fin S2x16x1024x64.rank)
  reducesTo_S2x16x1024x64_S_d0_1_2_3 : S2x16x1024x64.ReducesTo [0, 1, 2, 3] S_
  h_S_ : 0 < S_.numel
  bcast_S_S2047x1024 : S_.BroadcastsInDim S2047x1024 (![] : Fin 0 → Fin S2047x1024.rank)
  reducesTo_S2047x1024_S_d0_1 : S2047x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S2x16x1024x64 .f32) (main_arg1 : FVec F S2047x1024 .f32) (main_arg2 : FVec F S1024x1024 .f32) : IVec S_ 1 :=
  let main_v0 : FVec F S2x16x1024x64 .f32 := Host.absf main_arg0
  let main_cst : FVec F S_ .f32 := constant S_ .f32 0x7F800000#32
  let main_v1 : FVec F S2x16x1024x64 .f32 := broadcastInDim S2x16x1024x64 ![] bcast_S_S2x16x1024x64 main_cst
  let main_v2 : IVec S2x16x1024x64 1 := cmpf .olt main_v0 main_v1
  let main_c : IVec S_ 1 := constantI S_ 1 1#1
  let main_v3 : IVec S_ 1 := (fun x v => Host.reduce IntOp.andi x v reducesTo_S2x16x1024x64_S_d0_1_2_3 h_S_) main_v2 main_c
  let main_v4 : FVec F S2047x1024 .f32 := Host.absf main_arg1
  let main_cst_0 : FVec F S_ .f32 := constant S_ .f32 0x7F800000#32
  let main_v5 : FVec F S2047x1024 .f32 := broadcastInDim S2047x1024 ![] bcast_S_S2047x1024 main_cst_0
  let main_v6 : IVec S2047x1024 1 := cmpf .olt main_v4 main_v5
  let main_c_1 : IVec S_ 1 := constantI S_ 1 1#1
  let main_v7 : IVec S_ 1 := (fun x v => Host.reduce IntOp.andi x v reducesTo_S2047x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S2x16x1024x64 : Shape := ⟨4, ![2, 16, 1024, 64]⟩
abbrev S2047x1024 : Shape := ⟨2, ![2047, 1024]⟩
abbrev S1024x1024 : Shape := ⟨2, ![1024, 1024]⟩
abbrev S_ : Shape := ⟨0, ![]⟩
abbrev S2048x1024 : Shape := ⟨2, ![2048, 1024]⟩
abbrev S2048x16x64 : Shape := ⟨3, ![2048, 16, 64]⟩
abbrev S16x2048x64 : Shape := ⟨3, ![16, 2048, 64]⟩
abbrev S16x2048x2048 : Shape := ⟨3, ![16, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S16x2x1024x2048 : Shape := ⟨4, ![16, 2, 1024, 2048]⟩
abbrev S16x2x2048x1024 : Shape := ⟨4, ![16, 2, 2048, 1024]⟩
abbrev S16x2x2047x1024 : Shape := ⟨4, ![16, 2, 2047, 1024]⟩
abbrev S16x2x1024x2047 : Shape := ⟨4, ![16, 2, 1024, 2047]⟩
abbrev S16x2x1024x1024 : Shape := ⟨4, ![16, 2, 1024, 1024]⟩
abbrev S2x16x1024x1024 : Shape := ⟨4, ![2, 16, 1024, 1024]⟩

abbrev nBuf : Space → Nat
  | .hbm => 20
  | .vmem => 11
  | .smem => 0
  | _ => 0

abbrev bufTy : (tb : Table) → Fin (tcTables nBuf tb) → BufTy
  | .hbm, ⟨0, _⟩ => ⟨S2x16x1024x64, .f32⟩
  | .hbm, ⟨1, _⟩ => ⟨S2047x1024, .f32⟩
  | .hbm, ⟨2, _⟩ => ⟨S1024x1024, .f32⟩
  | .hbm, ⟨3, _⟩ => ⟨S_, .i32⟩
  | .hbm, ⟨4, _⟩ => ⟨S_, .f32⟩
  | .hbm, ⟨5, _⟩ => ⟨S2048x1024, .f32⟩
  | .hbm, ⟨6, _⟩ => ⟨S2048x1024, .bf16⟩
  | .hbm, ⟨7, _⟩ => ⟨S1024x1024, .bf16⟩
  | .hbm, ⟨8, _⟩ => ⟨S2048x1024, .bf16⟩
  | .hbm, ⟨9, _⟩ => ⟨S2048x16x64, .bf16⟩
  | .hbm, ⟨10, _⟩ => ⟨S16x2048x64, .bf16⟩
  | .hbm, ⟨11, _⟩ => ⟨S16x2048x64, .f32⟩
  | .hbm, ⟨12, _⟩ => ⟨S16x2048x64, .bf16⟩
  | .hbm, ⟨13, _⟩ => ⟨S16x2048x2048, .f32⟩
  | .hbm, ⟨14, _⟩ => ⟨S16x2x1024x2048, .f32⟩
  | .hbm, ⟨15, _⟩ => ⟨S16x2x2048x1024, .f32⟩
  | .hbm, ⟨16, _⟩ => ⟨S16x2x2047x1024, .f32⟩
  | .hbm, ⟨17, _⟩ => ⟨S16x2x1024x2047, .f32⟩
  | .hbm, ⟨18, _⟩ => ⟨S16x2x1024x1024, .f32⟩
  | .hbm, ⟨19, _⟩ => ⟨S2x16x1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x64, .bf16⟩
  | .local _ .vmem, ⟨6, _⟩ => ⟨S1x1024x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x1024x2048, .f32⟩
  | .local _ .vmem, ⟨10, _⟩ => ⟨S1x1024x2048, .f32⟩
  | _, _ => ⟨S2x16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  pads_S2047x1024_S2048x1024_100_000 : S2047x1024.Pads (![1, 0] : Fin 2 → Nat) ![0, 0] ![0, 0] S2048x1024
  h_S_ : 0 < S_.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S2048x1024_S2048x16x64 : S2048x1024.ShapeCasts S2048x16x64
  transposes_S2048x16x64_S16x2048x64_1_0_2 : S2048x16x64.Transposes [1, 0, 2] S16x2048x64
  shapeCasts_S2x16x1024x64_S16x2048x64 : S2x16x1024x64.ShapeCasts S16x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S16x2048x2048_S16x2x1024x2048 : S16x2048x2048.ShapeCasts S16x2x1024x2048
  shapeCasts_S16x2x1024x2048_S16x2x2048x1024 : S16x2x1024x2048.ShapeCasts S16x2x2048x1024
  slices_S16x2x2048x1024_S16x2x2047x1024_0_0_1_0 : S16x2x2048x1024.Slices ![0, 0, 1, 0] S16x2x2047x1024
  shapeCasts_S16x2x2047x1024_S16x2x1024x2047 : S16x2x2047x1024.ShapeCasts S16x2x1024x2047
  slices_S16x2x1024x2047_S16x2x1024x1024_0_0_0_0 : S16x2x1024x2047.Slices ![0, 0, 0, 0] S16x2x1024x1024
  shapeCasts_S16x2x1024x1024_S2x16x1024x1024 : S16x2x1024x1024.ShapeCasts S2x16x1024x1024
  dot_S1024x1024_S1024x1024_S1024x1024_1_0_0_1_n_n_wf : DotDims.WF S1024x1024 S1024x1024 S1024x1024 [1] [0] [0] [1] [] []
  dot_S1024x64_S2048x64_S1024x2048_1_1_0_0_n_n_wf : DotDims.WF S1024x64 S2048x64 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S2048x1024.size a
  hwx0_0 : ∀ i : grid0.Coords, EltTy.bits .bf16 = 32 ∨ (Rect.block (s := S2048x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S2048x1024.size a
  hwx0_2 : ∀ i : grid0.Coords, EltTy.bits .bf16 = 32 ∨ (Rect.block (s := S2048x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S16x2048x64.size a
  hwx1_0 : ∀ i : grid1.Coords, EltTy.bits .bf16 = 32 ∨ (Rect.block (s := S16x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S16x2048x64.size a
  hwx1_1 : ∀ i : grid1.Coords, EltTy.bits .bf16 = 32 ∨ (Rect.block (s := S16x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S16x2048x2048.size a
  hwx1_2 : ∀ i : grid1.Coords, EltTy.bits .f32 = 32 ∨ (Rect.block (s := S16x2048x2048) S1x1024x2048.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2x16x1024x64 : Shape := ⟨4, ![2, 16, 1024, 64]⟩
abbrev S2047x1024 : Shape := ⟨2, ![2047, 1024]⟩
abbrev S1024x1024 : Shape := ⟨2, ![1024, 1024]⟩
abbrev S2047 : Shape := ⟨1, ![2047]⟩
abbrev S_ : Shape := ⟨0, ![]⟩
abbrev S2047x1 : Shape := ⟨2, ![2047, 1]⟩
abbrev S2047x16x64 : Shape := ⟨3, ![2047, 16, 64]⟩
abbrev S16x2047x64 : Shape := ⟨3, ![16, 2047, 64]⟩
abbrev S16x2048x64 : Shape := ⟨3, ![16, 2048, 64]⟩
abbrev S16x2048x2047 : Shape := ⟨3, ![16, 2048, 2047]⟩
abbrev S1024 : Shape := ⟨1, ![1024]⟩
abbrev S1x1024 : Shape := ⟨2, ![1, 1024]⟩
abbrev S1024x1 : Shape := ⟨2, ![1024, 1]⟩
abbrev S1048576 : Shape := ⟨1, ![1048576]⟩
abbrev S16x2x2096128 : Shape := ⟨3, ![16, 2, 2096128]⟩
abbrev S1048576x1 : Shape := ⟨2, ![1048576, 1]⟩
abbrev S1 : Shape := ⟨1, ![1]⟩
abbrev S1x1 : Shape := ⟨2, ![1, 1]⟩
abbrev S16x2x1048576 : Shape := ⟨3, ![16, 2, 1048576]⟩
abbrev S2x16x1024x1024 : Shape := ⟨4, ![2, 16, 1024, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x16x1024x64, .f32⟩
  | .hbm, ⟨1, _⟩ => ⟨S2047x1024, .f32⟩
  | .hbm, ⟨2, _⟩ => ⟨S1024x1024, .f32⟩
  | .hbm, ⟨3, _⟩ => ⟨S2047, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S2047, .i32⟩
  | .hbm, ⟨8, _⟩ => ⟨S2047, .i32⟩
  | .hbm, ⟨9, _⟩ => ⟨S_, .i32⟩
  | .hbm, ⟨10, _⟩ => ⟨S2047, .i32⟩
  | .hbm, ⟨11, _⟩ => ⟨S2047, .i32⟩
  | .hbm, ⟨12, _⟩ => ⟨S_, .i32⟩
  | .hbm, ⟨13, _⟩ => ⟨S2047, .i32⟩
  | .hbm, ⟨14, _⟩ => ⟨S2047, .i1⟩
  | .hbm, ⟨15, _⟩ => ⟨S_, .i32⟩
  | .hbm, ⟨16, _⟩ => ⟨S2047, .i32⟩
  | .hbm, ⟨17, _⟩ => ⟨S2047, .i32⟩
  | .hbm, ⟨18, _⟩ => ⟨S2047, .i32⟩
  | .hbm, ⟨19, _⟩ => ⟨S2047x1, .i32⟩
  | .hbm, ⟨20, _⟩ => ⟨S2047x1024, .f32⟩
  | .hbm, ⟨21, _⟩ => ⟨S2047x1024, .f32⟩
  | .hbm, ⟨22, _⟩ => ⟨S2047x16x64, .f32⟩
  | .hbm, ⟨23, _⟩ => ⟨S16x2047x64, .f32⟩
  | .hbm, ⟨24, _⟩ => ⟨S16x2048x64, .f32⟩
  | .hbm, ⟨25, _⟩ => ⟨S16x2048x2047, .f32⟩
  | .hbm, ⟨26, _⟩ => ⟨S1024, .i32⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1x1024, .i32⟩
  | .hbm, ⟨31, _⟩ => ⟨S1024, .i32⟩
  | .hbm, ⟨32, _⟩ => ⟨S1024x1, .i32⟩
  | .hbm, ⟨33, _⟩ => ⟨S1024x1024, .i32⟩
  | .hbm, ⟨34, _⟩ => ⟨S1024x1024, .i32⟩
  | .hbm, ⟨35, _⟩ => ⟨S1024x1024, .i32⟩
  | .hbm, ⟨36, _⟩ => ⟨S1024, .i32⟩
  | .hbm, ⟨37, _⟩ => ⟨S1024x1, .i32⟩
  | .hbm, ⟨38, _⟩ => ⟨S_, .i32⟩
  | .hbm, ⟨39, _⟩ => ⟨S1024x1, .i32⟩
  | .hbm, ⟨40, _⟩ => ⟨S1024x1, .i32⟩
  | .hbm, ⟨41, _⟩ => ⟨S1024x1024, .i32⟩
  | .hbm, ⟨42, _⟩ => ⟨S1024x1024, .i32⟩
  | .hbm, ⟨43, _⟩ => ⟨S1048576, .i32⟩
  | .hbm, ⟨44, _⟩ => ⟨S16x2x2096128, .f32⟩
  | .hbm, ⟨45, _⟩ => ⟨S_, .i32⟩
  | .hbm, ⟨46, _⟩ => ⟨S1048576, .i32⟩
  | .hbm, ⟨47, _⟩ => ⟨S1048576, .i1⟩
  | .hbm, ⟨48, _⟩ => ⟨S_, .i32⟩
  | .hbm, ⟨49, _⟩ => ⟨S1048576, .i32⟩
  | .hbm, ⟨50, _⟩ => ⟨S1048576, .i32⟩
  | .hbm, ⟨51, _⟩ => ⟨S1048576, .i32⟩
  | .hbm, ⟨52, _⟩ => ⟨S1048576x1, .i32⟩
  | .hbm, ⟨53, _⟩ => ⟨S1, .i32⟩
  | .hbm, ⟨54, _⟩ => ⟨S_, .i32⟩
  | .hbm, ⟨55, _⟩ => ⟨S1048576x1, .i32⟩
  | .hbm, ⟨56, _⟩ => ⟨S1048576x1, .i1⟩
  | .hbm, ⟨57, _⟩ => ⟨S1x1, .i32⟩
  | .hbm, ⟨58, _⟩ => ⟨S1048576x1, .i32⟩
  | .hbm, ⟨59, _⟩ => ⟨S1048576x1, .i1⟩
  | .hbm, ⟨60, _⟩ => ⟨S1048576x1, .i1⟩
  | .hbm, ⟨61, _⟩ => ⟨S_, .i1⟩
  | .hbm, ⟨62, _⟩ => ⟨S1048576, .i1⟩
  | .hbm, ⟨63, _⟩ => ⟨S16x2x1048576, .f32⟩
  | .hbm, ⟨64, _⟩ => ⟨S16x2x1048576, .i1⟩
  | .hbm, ⟨65, _⟩ => ⟨S_, .f32⟩
  | .hbm, ⟨66, _⟩ => ⟨S16x2x1048576, .f32⟩
  | .hbm, ⟨67, _⟩ => ⟨S16x2x1048576, .f32⟩
  | .hbm, ⟨68, _⟩ => ⟨S2x16x1024x1024, .f32⟩
  | _, _ => ⟨S2x16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c_1 : Ref sig .tc := ⟨.hbm, 12, rfl⟩
abbrev main_v2 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]

class Facts₀ : Prop where
  bcast_S_S2047 : S_.BroadcastsInDim S2047 (![] : Fin 0 → Fin S2047.rank)
  bcast_S2047_S2047x1_0 : S2047.BroadcastsInDim S2047x1 (![0] : Fin 1 → Fin S2047x1.rank)
  shapeCasts_S2047x1024_S2047x16x64 : S2047x1024.ShapeCasts S2047x16x64
  transposes_S2047x16x64_S16x2047x64_1_0_2 : S2047x16x64.Transposes [1, 0, 2] S16x2047x64
  shapeCasts_S2x16x1024x64_S16x2048x64 : S2x16x1024x64.ShapeCasts S16x2048x64
  bcast_S_S1024 : S_.BroadcastsInDim S1024 (![] : Fin 0 → Fin S1024.rank)
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1 : S_.BroadcastsInDim S1024x1 (![] : Fin 0 → Fin S1024x1.rank)
  shapeCasts_S1024x1024_S1048576 : S1024x1024.ShapeCasts S1048576
  shapeCasts_S16x2048x2047_S16x2x2096128 : S16x2048x2047.ShapeCasts S16x2x2096128
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S16x2x1048576_2 : S1048576.BroadcastsInDim S16x2x1048576 (![2] : Fin 1 → Fin S16x2x1048576.rank)
  bcast_S_S16x2x1048576 : S_.BroadcastsInDim S16x2x1048576 (![] : Fin 0 → Fin S16x2x1048576.rank)
  shapeCasts_S16x2x1048576_S2x16x1024x1024 : S16x2x1048576.ShapeCasts S2x16x1024x1024
  gather_S2047x1024_S2047x1_S2047x1024_1_0_n_n_0_1_11024_wf : GatherDims.WF S2047x1024 S2047x1 S2047x1024 [1] [0] [] [0] [] 1 ![1, 1024]
  dot_S2047x1024_S1024x1024_S2047x1024_1_0_0_1_n_n_wf : DotDims.WF S2047x1024 S1024x1024 S2047x1024 [1] [0] [0] [1] [] []
  dot_S16x2048x64_S16x2047x64_S16x2048x2047_2_2_1_1_0_0_wf : DotDims.WF S16x2048x64 S16x2047x64 S16x2048x2047 [2] [2] [1] [1] [0] [0]
  gather_S16x2x2096128_S1048576x1_S16x2x1048576_01_2_n_n_2_1_1621_wf : GatherDims.WF S16x2x2096128 S1048576x1 S16x2x1048576 [0, 1] [2] [] [2] [] 1 ![16, 2, 1]

variable [Facts₀]

def gather_S2047x1024_S2047x1_S2047x1024_1_0_n_n_0_1_11024 : GatherDims S2047x1024 S2047x1 S2047x1024 where
  offsetDims := [1]
  collapsedSliceDims := [0]
  operandBatchingDims := []
  startIndicesBatchingDims := []
  startIndexMap := [0]
  indexVectorDim := 1
  sliceSizes := ![1, 1024]
  wf := gather_S2047x1024_S2047x1_S2047x1024_1_0_n_n_0_1_11024_wf
def dot_S2047x1024_S1024x1024_S2047x1024_1_0_0_1_n_n : DotDims S2047x1024 S1024x1024 S2047x1024 where
  lhsContracting := [1]
  rhsContracting := [0]
  lhsNonContracting := [0]
  rhsNonContracting := [1]
  lhsBatch := []
  rhsBatch := []
  wf := dot_S2047x1024_S1024x1024_S2047x1024_1_0_0_1_n_n_wf
def dot_S16x2048x64_S16x2047x64_S16x2048x2047_2_2_1_1_0_0 : DotDims S16x2048x64 S16x2047x64 S16x2048x2047 where
  lhsContracting := [2]
  rhsContracting := [2]
  lhsNonContracting := [1]
  rhsNonContracting := [1]
  lhsBatch := [0]
  rhsBatch := [0]
  wf := dot_S16x2048x64_S16x2047x64_S16x2048x2047_2_2_1_1_0_0_wf
def gather_S16x2x2096128_S1048576x1_S16x2x1048576_01_2_n_n_2_1_1621 : GatherDims S16x2x2096128 S1048576x1 S16x2x1048576 where
  offsetDims := [0, 1]
  collapsedSliceDims := [2]
  operandBatchingDims := []
  startIndicesBatchingDims := []
  startIndexMap := [2]
  indexVectorDim := 1
  sliceSizes := ![16, 2, 1]
  wf := gather_S16x2x2096128_S1048576x1_S16x2x1048576_01_2_n_n_2_1_1621_wf

class Facts : Prop extends Facts₀ where

variable [Facts]
-- ==== Proof.Spec.lean ====
/-
  The relative-position score, as one function of the three argument arrays.

  The position table (2047 rows of 1024 features) is projected by the dense matrix; the projected row r is cut into
  16 heads of 64 features. The query array, read raw as 16 heads of 2048 rows of 64 features, is contracted with the
  projected rows head by head over the 64 features. The result entry for head h, batch b, query position s and key
  position j is the score of query row b * 1024 + s against the projected row of relative position 1023 + j - s.
  The result array is the raw re-reading of the array indexed (h, b, s, j) under the shape [2, 16, 1024, 1024].
-/
import Idealize.ShloMosaic.PureOps.Ideal
import Idealize.ShloMosaic.Lib.ValueIdx

noncomputable section

namespace Cert.RelScore

open Idealize.ShloMosaic Idealize.ShloMosaic.ValueIdx

abbrev SQ : Shape := ⟨4, ![2, 16, 1024, 64]⟩
abbrev SP : Shape := ⟨2, ![2047, 1024]⟩
abbrev SW : Shape := ⟨2, ![1024, 1024]⟩
abbrev SO : Shape := ⟨4, ![2, 16, 1024, 1024]⟩

/-- Entry (r, e) of the position table times the dense matrix. -/
def proj (pos : SP.Idx → EReal) (w : SW.Idx → EReal) (r : Fin 2047) (e : Fin 1024) : EReal :=
  ∑ k : Fin 1024, pos (ix2 r k) * w (ix2 k e)

/-- The query array read raw as [16, 2048, 64]: row-major position (h * 2048 + n) * 64 + d. -/
def q3 (q : SQ.Idx → EReal) (h : Fin 16) (n : Fin 2048) (d : Fin 64) : EReal :=
  q (ix4 (⟨(h.val * 2 + n.val / 1024) / 16, by have := h.isLt; have := n.isLt; omega⟩ : Fin 2)
         (⟨(h.val * 2 + n.val / 1024) % 16, by omega⟩ : Fin 16)
         (⟨n.val % 1024, by omega⟩ : Fin 1024) d)

/-- The score of query row n of head h against the projected position row r: the contraction over the head's 64
    features. -/
def score (q : SQ.Idx → EReal) (pos : SP.Idx → EReal) (w : SW.Idx → EReal) (h : Fin 16) (n : Fin 2048) (r : Fin 2047) : EReal :=
  ∑ d : Fin 64, q3 q h n d * proj pos w r (⟨h.val * 64 + d.val, by have := h.isLt; have := d.isLt; omega⟩ : Fin 1024)

/-- The shifted score at (h, b, s, j): query row b * 1024 + s against relative position 1023 + j - s. -/
def shifted (q : SQ.Idx → EReal) (pos : SP.Idx → EReal) (w : SW.Idx → EReal) (h : Fin 16) (b : Fin 2) (s j : Fin 1024) : EReal :=
  score q pos w h (⟨b.val * 1024 + s.val, by have := b.isLt; have := s.isLt; omega⟩ : Fin 2048)
    (⟨1023 + j.val - s.val, by have := j.isLt; have := s.isLt; omega⟩ : Fin 2047)

/-- The result array: index (u, v, s, j) of shape [2, 16, 1024, 1024] holds the shifted score of head (u * 16 + v) / 2 and
    batch (u * 16 + v) % 2 (the array indexed (h, b, s, j) re-read raw). -/
def G (q : SQ.Idx → EReal) (pos : SP.Idx → EReal) (w : SW.Idx → EReal) : SO.Idx → EReal := fun i =>
  shifted q pos w (⟨((i 0).val * 16 + (i 1).val) / 2, by have h0 : (i 0).val < 2 := (i 0).isLt; have h1 : (i 1).val < 16 := (i 1).isLt; omega⟩ : Fin 16)
    (⟨((i 0).val * 16 + (i 1).val) % 2, by omega⟩ : Fin 2) (i 2) (i 3)

/-- The first product as a whole array: the padded position table (2048 rows) times the dense matrix. -/
def mm0 (a : (⟨2, ![2048, 1024]⟩ : Shape).Idx → EReal) (w : SW.Idx → EReal) : (⟨2, ![2048, 1024]⟩ : Shape).Idx → EReal :=
  fun i => ∑ k : Fin 1024, a (ix2 (i 0) k) * w (ix2 k (i 1))

/-- The second product as a whole array: head by head, row n of x against row r of y over the 64 features. -/
def mm1 (x y : (⟨3, ![16, 2048, 64]⟩ : Shape).Idx → EReal) : (⟨3, ![16, 2048, 2048]⟩ : Shape).Idx → EReal :=
  fun i => ∑ d : Fin 64, x (ix3 (i 0) (i 1) d) * y (ix3 (i 0) (i 2) d)

end Cert.RelScore

end
-- ==== Proof.KRun.lean ====
/-
  The kernel program's run with its result named.

  Every weakly fair execution of the idealized kernel program ends with each unscoped buffer holding the fold of the
  program's segments over the launch memory: the host operations' results and, for each of the two matrix-product
  regions, what its write-backs leave. Read at the result buffer this names the result; read at the arguments it gives
  them back unchanged.
-/
import proofs.«117952_j88115549045052_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments with the last boundary's contents read at the result buffer and at the arguments. -/
theorem run_value : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v14 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.KRun

end
-- ==== Proof.KHost.lean ====
/-
  The host operations around the two matrix-product regions of the kernel program, read at an index.

  Before the first region the position table gets one zero row in front; between the regions the first product is cut
  into heads and the query array is re-read as 16 heads of 2048 rows; after the second region the scores of each
  (head, batch) pair, 1024 rows of 2048 columns, are re-read as 2048 rows of 1024, the first row is dropped, the rest is
  re-read as 1024 rows of 2047 columns and the first 1024 columns are kept: entry (s, j) of the outcome is the score at
  row s, column 1024 + j - s.
-/
import proofs.«117952_j88115549045052_2_alg».proof.Proof.KRun
import proofs.«117952_j88115549045052_2_alg».proof.Proof.Spec
import Idealize.ShloMosaic.Lib.Pipeline.Value
import Idealize.ShloMosaic.Lib.ValueIdx
import Idealize.ShloMosaic.Lib.StableHlo.Run
import Idealize.ShloMosaic.Lib.KernelVsHost

set_option maxRecDepth 16384

noncomputable section

namespace Cert.KernelIdeal.KHost

open Cert.KernelIdeal Cert.KernelIdeal.Gen
open Idealize.ShloMosaic Idealize.ShloMosaic.TcCoe Idealize.ShloMosaic.ValueIdx Idealize.ShloMosaic.StableHlo
open Idealize.SL.Sem
open Facts₀ Facts

/-! ## The relative shift by re-reading -/

section Shift
variable {α : Type}

/-- The six layout operations after the second region, as one function of the score array. -/
def shift (x : S16x2048x2048.Idx → α) : S2x16x1024x1024.Idx → α :=
  shapeCast S2x16x1024x1024
    (extractStridedSlice S16x2x1024x1024 ![0, 0, 0, 0]
      (shapeCast S16x2x1024x2047
        (extractStridedSlice S16x2x2047x1024 ![0, 0, 1, 0]
          (shapeCast S16x2x2048x1024 (shapeCast S16x2x1024x2048 x Facts₀.shapeCasts_S16x2048x2048_S16x2x1024x2048)
            Facts₀.shapeCasts_S16x2x1024x2048_S16x2x2048x1024)
          Facts₀.slices_S16x2x2048x1024_S16x2x2047x1024_0_0_1_0)
        Facts₀.shapeCasts_S16x2x2047x1024_S16x2x1024x2047)
      Facts₀.slices_S16x2x1024x2047_S16x2x1024x1024_0_0_0_0)
    Facts₀.shapeCasts_S16x2x1024x1024_S2x16x1024x1024

/-- Entry (u, v, s, j) of the shifted array is the score of head (u*16+v)/2 at row ((u*16+v)%2)*1024 + s, column
    1024 + j - s: within a (head, batch) slab the flat position s*2047 + j of the shortened array is the flat position
    s*2048 + (1024 + j - s) of the full one, because exactly 1024 leading entries were dropped. -/
theorem shift_apply (x : S16x2048x2048.Idx → α) (u : Fin 2) (v : Fin 16) (s j : Fin 1024) :
    shift x (ix4 u v s j)
      = x (ix3 (⟨(u.val * 16 + v.val) / 2, by have := u.isLt; have := v.isLt; omega⟩ : Fin 16)
            (⟨((u.val * 16 + v.val) % 2) * 1024 + s.val, by have := s.isLt; omega⟩ : Fin 2048)
            (⟨1024 + j.val - s.val, by have := s.isLt; have := j.isLt; omega⟩ : Fin 2048)) := by
  have hu := u.isLt; have hv := v.isLt; have hs := s.isLt; have hj := j.isLt
  unfold shift
  -- [2,16,1024,1024] at (u,v,s,j) reads [16,2,1024,1024] at (h,b,s,j)
  refine (shapeCast_apply _ _ _
    (ix4 (⟨(u.val * 16 + v.val) / 2, by omega⟩ : Fin 16) (⟨(u.val * 16 + v.val) % 2, by omega⟩ : Fin 2) s j)
    (by rw [Shape.rowMajor_val_four, Shape.rowMajor_val_four]
        show ((((u.val * 16 + v.val) / 2) * 2 + (u.val * 16 + v.val) % 2) * 1024 + s.val) * 1024 + j.val
          = ((u.val * 16 + v.val) * 1024 + s.val) * 1024 + j.val
        omega)).trans ?_
  -- the slice at offset 0: [16,2,1024,1024] reads [16,2,1024,2047] at the same coordinates
  refine (extractStridedSlice_apply _ _ _ _
    (ix4 (⟨(u.val * 16 + v.val) / 2, by omega⟩ : Fin 16) (⟨(u.val * 16 + v.val) % 2, by omega⟩ : Fin 2) s (⟨j.val, by omega⟩ : Fin 2047))
    (fun a => match a with
      | ⟨0, _⟩ => by show (u.val * 16 + v.val) / 2 = 0 + (u.val * 16 + v.val) / 2; omega
      | ⟨1, _⟩ => by show (u.val * 16 + v.val) % 2 = 0 + (u.val * 16 + v.val) % 2; omega
      | ⟨2, _⟩ => by show s.val = 0 + s.val; omega
      | ⟨3, _⟩ => by show j.val = 0 + j.val; omega)).trans ?_
  -- [16,2,1024,2047] at (h,b,s,j) reads [16,2,2047,1024] at the same flat position s*2047 + j of the slab
  refine (shapeCast_apply _ _ _
    (ix4 (⟨(u.val * 16 + v.val) / 2, by omega⟩ : Fin 16) (⟨(u.val * 16 + v.val) % 2, by omega⟩ : Fin 2)
      (⟨(s.val * 2047 + j.val) / 1024, by omega⟩ : Fin 2047) (⟨(s.val * 2047 + j.val) % 1024, by omega⟩ : Fin 1024))
    (by rw [Shape.rowMajor_val_four, Shape.rowMajor_val_four]
        show ((((u.val * 16 + v.val) / 2) * 2 + (u.val * 16 + v.val) % 2) * 2047 + (s.val * 2047 + j.val) / 1024) * 1024 + (s.val * 2047 + j.val) % 1024
          = ((((u.val * 16 + v.val) / 2) * 2 + (u.val * 16 + v.val) % 2) * 1024 + s.val) * 2047 + j.val
        omega)).trans ?_
  -- the slice that drops the first row
  refine (extractStridedSlice_apply _ _ _ _
    (ix4 (⟨(u.val * 16 + v.val) / 2, by omega⟩ : Fin 16) (⟨(u.val * 16 + v.val) % 2, by omega⟩ : Fin 2)
      (⟨(s.val * 2047 + j.val) / 1024 + 1, by omega⟩ : Fin 2048) (⟨(s.val * 2047 + j.val) % 1024, by omega⟩ : Fin 1024))
    (fun a => match a with
      | ⟨0, _⟩ => by show (u.val * 16 + v.val) / 2 = 0 + (u.val * 16 + v.val) / 2; omega
      | ⟨1, _⟩ => by show (u.val * 16 + v.val) % 2 = 0 + (u.val * 16 + v.val) % 2; omega
      | ⟨2, _⟩ => by show (s.val * 2047 + j.val) / 1024 + 1 = 1 + (s.val * 2047 + j.val) / 1024; omega
      | ⟨3, _⟩ => by show (s.val * 2047 + j.val) % 1024 = 0 + (s.val * 2047 + j.val) % 1024; omega)).trans ?_
  -- [16,2,2048,1024] reads [16,2,1024,2048] at the same flat position of the slab
  refine (shapeCast_apply _ _ _
    (ix4 (⟨(u.val * 16 + v.val) / 2, by omega⟩ : Fin 16) (⟨(u.val * 16 + v.val) % 2, by omega⟩ : Fin 2)
      s (⟨1024 + j.val - s.val, by omega⟩ : Fin 2048))
    (by rw [Shape.rowMajor_val_four, Shape.rowMajor_val_four]
        show ((((u.val * 16 + v.val) / 2) * 2 + (u.val * 16 + v.val) % 2) * 1024 + s.val) * 2048 + (1024 + j.val - s.val)
          = ((((u.val * 16 + v.val) / 2) * 2 + (u.val * 16 + v.val) % 2) * 2048 + ((s.val * 2047 + j.val) / 1024 + 1)) * 1024 + (s.val * 2047 + j.val) % 1024
        omega)).trans ?_
  -- [16,2,1024,2048] at (h,b,s,c) reads [16,2048,2048] at (h, b*1024+s, c)
  exact shapeCast_apply _ _ _ _
    (by rw [Shape.rowMajor_val_three, Shape.rowMajor_val_four]
        show (((u.val * 16 + v.val) / 2) * 2048 + (((u.val * 16 + v.val) % 2) * 1024 + s.val)) * 2048 + (1024 + j.val - s.val)
          = ((((u.val * 16 + v.val) / 2) * 2 + (u.val * 16 + v.val) % 2) * 1024 + s.val) * 2048 + (1024 + j.val - s.val)
        omega)

end Shift

/-! ## The buffers at the regions' boundaries -/

section Boundaries

variable {F : FTy → Type} [FloatOps F]
variable (m : (ℓ : Loc nD τ sig) → Buf (Elt F) ℓ) (ρ : Dev nD → PrngReg) (c : Dev nD)

/-- The query argument when the first region is entered: as launched. -/
theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results

/-- The padded position table, rounded, when the first region is entered. -/
theorem V3_v1 : V3 m ρ c main_v1
    = truncf .bf16 (pad S2048x1024 ![1, 0] ![0, 0] ![0, 0] (m ((c : Thread nD τ).loc main_arg1))
        (sitofp .f32 (constantI S_ 32 0#32) : (⟨S_, .f32⟩ : BufTy).Contents (Elt F)) Facts₀.pads_S2047x1024_S2048x1024_100_000 Facts₀.h_S_) Facts₀.bitsLt_bf16_f32 := by
  show StableHlo.after hostOps0_2 (StableHlo.after hostOps0_1 (StableHlo.after hostOps0 (W0 m ρ c))) (Proc.devRef .tc main_v1) = _
  after_results
  rfl

/-- The dense matrix, rounded, when the first region is entered. -/
theorem V3_v2 : V3 m ρ c main_v2 = truncf .bf16 (m ((c : Thread nD τ).loc main_arg2)) Facts₀.bitsLt_bf16_f32 := by
  show StableHlo.after hostOps0_2 (StableHlo.after hostOps0_1 (StableHlo.after hostOps0 (W0 m ρ c))) (Proc.devRef .tc main_v2) = _
  after_results

/-- The query re-read as 16 heads of 2048 rows, rounded, when the second region is entered. -/
theorem V5_v7 : V5 m ρ c main_v7
    = truncf .bf16 (shapeCast S16x2048x64 (m ((c : Thread nD τ).loc main_arg0)) Facts₀.shapeCasts_S2x16x1024x64_S16x2048x64) Facts₀.bitsLt_bf16_f32 := by
  show StableHlo.after hostOps1 (W4 m ρ c) (Proc.devRef .tc main_v7) = _
  after_results
  rw [W4_of_ne m ρ c main_arg0 (by decide), W3_arg0]
  rfl

/-- The first product cut into heads, head first, when the second region is entered. -/
theorem V5_v5 : V5 m ρ c main_v5
    = transpose S16x2048x64 [1, 0, 2] (shapeCast S2048x16x64 ((dat0 (V3 m ρ) c).arrAt 2 cfg0.N) Facts₀.shapeCasts_S2048x1024_S2048x16x64)
        Facts₀.transposes_S2048x16x64_S16x2048x64_1_0_2 := by
  show StableHlo.after hostOps1 (W4 m ρ c) (Proc.devRef .tc main_v5) = _
  after_results
  rw [show W4 m ρ c (Proc.devRef .tc main_v3) = (dat0 (V3 m ρ) c).arrAt 2 cfg0.N from W4_arr m ρ c 2]
  rfl

/-- The result buffer at the end: the shift of what the second region leaves. -/
theorem W7_v14 : W7 m ρ c (Proc.devRef .tc main_v14) = shift ((dat1 (V5 m ρ) c).arrAt 2 cfg1.N) := by
  show StableHlo.after hostOps2 (W6 m ρ c) (Proc.devRef .tc main_v14) = _
  after_results
  rw [show W6 m ρ c (Proc.devRef .tc main_v8) = (dat1 (V5 m ρ) c).arrAt 2 cfg1.N from W6_arr m ρ c 2]
  rfl

end Boundaries

/-! ## The result, index by index -/

section Value

open Cert.RelScore

/-- The query re-read as 16 heads of 2048 rows, at (h, n, d). -/
theorem query_rows (q : S2x16x1024x64.Idx → EReal) (h : Fin 16) (n : Fin 2048) (d : Fin 64) :
    (truncf .bf16 (shapeCast S16x2048x64 q Facts₀.shapeCasts_S2x16x1024x64_S16x2048x64 : FVec Ideal S16x2048x64 .f32) Facts₀.bitsLt_bf16_f32 : FVec Ideal S16x2048x64 .bf16) (ix3 h n d)
      = q3 q h n d := by
  have hh := h.isLt; have hn := n.isLt; have hd := d.isLt
  show shapeCast S16x2048x64 q Facts₀.shapeCasts_S2x16x1024x64_S16x2048x64 (ix3 h n d) = _
  unfold q3
  exact shapeCast_apply _ _ _ _
    (by rw [Shape.rowMajor_val_four, Shape.rowMajor_val_three]
        show ((((h.val * 2 + n.val / 1024) / 16) * 16 + (h.val * 2 + n.val / 1024) % 16) * 1024 + n.val % 1024) * 64 + d.val
          = (h.val * 2048 + n.val) * 64 + d.val
        omega)

/-- The product cut into heads, head first, at (h, r, d): feature h * 64 + d of row r. -/
theorem head_rows (A : S2048x1024.Idx → EReal) (h : Fin 16) (r : Fin 2048) (d : Fin 64) :
    transpose S16x2048x64 [1, 0, 2] (shapeCast S2048x16x64 A Facts₀.shapeCasts_S2048x1024_S2048x16x64)
        Facts₀.transposes_S2048x16x64_S16x2048x64_1_0_2 (ix3 h r d)
      = A (ix2 r (⟨h.val * 64 + d.val, by have := h.isLt; have := d.isLt; omega⟩ : Fin 1024)) := by
  have hh := h.isLt; have hr := r.isLt; have hd := d.isLt
  refine (transpose_apply _ _ _ _ (ix3 r h d) (fun b => match b with | ⟨0, _⟩ => rfl | ⟨1, _⟩ => rfl | ⟨2, _⟩ => rfl)).trans ?_
  exact shapeCast_apply _ _ _ _
    (by rw [Shape.rowMajor_val_two, Shape.rowMajor_val_three]
        show r.val * 1024 + (h.val * 64 + d.val) = (r.val * 16 + h.val) * 64 + d.val
        omega)

/-- Row r + 1 of the table padded by one front row is row r of the table. -/
theorem padded_row (pos : S2047x1024.Idx → EReal) (z : S_.Idx → EReal) (r : Fin 2047) (k : Fin 1024) :
    pad S2048x1024 ![1, 0] ![0, 0] ![0, 0] pos z Facts₀.pads_S2047x1024_S2048x1024_100_000 Facts₀.h_S_
        (ix2 (⟨r.val + 1, by have := r.isLt; omega⟩ : Fin 2048) k) = pos (ix2 r k) :=
  pad_apply_of_inside _ _ _ _ _ _ _ _ (ix2 r k) (fun a => match a with
    | ⟨0, _⟩ => by show r.val + 1 = 1 + r.val * (0 + 1); omega
    | ⟨1, _⟩ => by show k.val = 0 + k.val * (0 + 1); omega)

/-- The two products and the shift, over plain arrays, are the specification: the scores' column 1024 + j - s is the
    padded table's row 1024 + j - s, that is the table's row 1023 + j - s; the zero row in front is never read. -/
theorem shifted_products (q : S2x16x1024x64.Idx → EReal) (pos : S2047x1024.Idx → EReal) (w : S1024x1024.Idx → EReal)
    (z : S_.Idx → EReal) :
    shift (mm1
        (truncf .bf16 (shapeCast S16x2048x64 q Facts₀.shapeCasts_S2x16x1024x64_S16x2048x64 : FVec Ideal S16x2048x64 .f32) Facts₀.bitsLt_bf16_f32 : FVec Ideal S16x2048x64 .bf16)
        (transpose S16x2048x64 [1, 0, 2]
          (shapeCast S2048x16x64
            (mm0 (truncf .bf16 (pad S2048x1024 ![1, 0] ![0, 0] ![0, 0] pos z Facts₀.pads_S2047x1024_S2048x1024_100_000 Facts₀.h_S_ : FVec Ideal S2048x1024 .f32) Facts₀.bitsLt_bf16_f32 : FVec Ideal S2048x1024 .bf16)
              (truncf .bf16 (w : FVec Ideal S1024x1024 .f32) Facts₀.bitsLt_bf16_f32 : FVec Ideal S1024x1024 .bf16))
            Facts₀.shapeCasts_S2048x1024_S2048x16x64)
          Facts₀.transposes_S2048x16x64_S16x2048x64_1_0_2))
      = G q pos w := by
  funext i
  obtain ⟨u, v, s, j, rfl⟩ : ∃ (u : Fin 2) (v : Fin 16) (s j : Fin 1024), i = ix4 u v s j := ⟨i 0, i 1, i 2, i 3, eq_ix4 i⟩
  have hu := u.isLt; have hv := v.isLt; have hs := s.isLt; have hj := j.isLt
  rw [shift_apply]
  unfold mm1 G shifted score
  refine Finset.sum_congr rfl fun d _ => ?_
  have hd := d.isLt
  refine congrArg₂ (· * ·) ?_ ?_
  · exact query_rows _ _ _ d
  · refine (head_rows _ _ _ d).trans ?_
    unfold mm0 proj
    refine Finset.sum_congr rfl fun k _ => ?_
    refine congrArg₂ (· * ·) ?_ ?_
    · have e : (⟨1024 + j.val - s.val, by omega⟩ : Fin 2048) = ⟨(1023 + j.val - s.val) + 1, by omega⟩ :=
        Fin.ext (by show 1024 + j.val - s.val = 1023 + j.val - s.val + 1; omega)
      exact (congrArg (fun r : Fin 2048 => pad S2048x1024 ![1, 0] ![0, 0] ![0, 0] pos z
          Facts₀.pads_S2047x1024_S2048x1024_100_000 Facts₀.h_S_ (ix2 r k)) e).trans
        (padded_row pos z (⟨1023 + j.val - s.val, by omega⟩ : Fin 2047) k)
    · rfl

variable (m : (ℓ : Loc nD τ sig) → Buf (Elt Ideal) ℓ) (ρ : Dev nD → PrngReg) (c : Dev nD)

/-- THE KERNEL PROGRAM'S RESULT: given each region's array as the whole product of what it found, the result buffer
    ends at the specification of the three arguments. -/
theorem out_eq
    (h0 : ∀ (V : (c : Dev nD) → (b : Ref sig .tc) → Buf (Elt Ideal) ((c : Thread nD τ).loc b)) (c : Dev nD),
      (dat0 (F := Ideal) V c).arrAt 2 cfg0.N = mm0 (V c main_v1) (V c main_v2))
    (h1 : ∀ (V : (c : Dev nD) → (b : Ref sig .tc) → Buf (Elt Ideal) ((c : Thread nD τ).loc b)) (c : Dev nD),
      (dat1 (F := Ideal) V c).arrAt 2 cfg1.N = mm1 (V c main_v7) (V c main_v5)) :
    W7 m ρ c (Proc.devRef .tc main_v14)
      = G (m ((c : Thread nD τ).loc main_arg0)) (m ((c : Thread nD τ).loc main_arg1)) (m ((c : Thread nD τ).loc main_arg2)) := by
  rw [W7_v14, h1, V5_v7, V5_v5, h0, V3_v1, V3_v2]
  exact shifted_products _ _ _ _

end Value

end Cert.KernelIdeal.KHost

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.Reg0.lean ====
/-
  The dense product, as one whole array.

  The kernel runs on two grid points. At point t it reads the row block t of the left array (rows 1024 t .. 1024 t + 1023 of
  the 2048 x 1024 array, all 1024 columns) and the whole 1024 x 1024 right array, and writes the row block t of the result:
  the matrix product of the two blocks into a zero accumulator, narrowed to the result's element type (the identity on
  extended reals). Entry (p, q) of that block is the sum over k of left-block (p, k) times right (k, q); the left block's
  row p is the array's row 1024 t + p, so the block is exactly the row block t of the whole-array product
  mm0 a w (r, e) = sum over k of a (r, k) * w (k, e). Row r of the array lies in the block of point r / 1024, so the two
  blocks cover the array and the result array ends holding mm0 of the two argument arrays as the region finds them.
-/
import proofs.«117952_j88115549045052_2_alg».proof.Proof.Spec
import proofs.«117952_j88115549045052_2_alg».proof.Proof.LibDotRead
import proofs.«117952_j88115549045052_2_alg».proof.Proof.Gen.KernelIdeal.Frame
import Idealize.ShloMosaic.Lib.Pipeline.Value

-- membership in a rectangle of extent 2048 x 1024: the structural look recurses once per coordinate of the long axes
set_option maxRecDepth 16384

noncomputable section

namespace Cert.KernelIdeal.Reg0

open Cert.KernelIdeal Cert.KernelIdeal.Gen Idealize.ShloMosaic Idealize.ShloMosaic.TcCoe Idealize.SL.Sem
open Idealize.ShloMosaic.ValueIdx
open Idealize.ShloMosaic.Pipeline (Dat)

/-! ## The payload at an index -/

/-- The product's dimension record is a plain one: the left operand is read at (output row, contraction), the right one
    at (contraction, output column), the contraction having the one coordinate of extent 1024. -/
theorem plain0 : Cert.DotRead.Plain (m := 1024) (n := 1024) (p := 1024) dot_S1024x1024_S1024x1024_S1024x1024_1_0_0_1_n_n where
  rank := rfl
  size := rfl
  lhs0 := fun i q => rfl
  lhs1 := fun i q => DotDims.lhsIdx_val_of_single _ rfl i q
  rhs0 := fun i q => DotDims.rhsIdx_val_of_single _ rfl i q
  rhs1 := fun i q => rfl

/-- Entry (p, q) of what the body stores: the sum over k of x0 (p, k) * x1 (k, q). The two same-shape casts are the
    identity, the accumulator is zero, and the narrowing is the identity on extended reals. -/
theorem pay_apply (x0 x1 : Vec Ideal S1024x1024 .bf16) (p q : Fin 1024) :
    k0_pay1 (F := Ideal) x0 x1 (ix2 p q) = ∑ k : Fin 1024, x0 (ix2 p k) * x1 (ix2 k q) := by
  unfold k0_pay1
  rw [shapeCast_self, shapeCast_self, truncf_apply]
  exact Cert.DotRead.matmul_zero_apply (φ₁ := .bf16) (φ₂ := .bf16) _ plain0 none x0 x1 p q

/-- The stored block at a block index y equals the whole-array product at an array index i, when row y 0 of the left
    block is row i 0 of the left array and column y 1 of the right block is column i 1 of the right array. -/
theorem pay_eq_mm0 (a : (⟨2, ![2048, 1024]⟩ : Shape).Idx → EReal) (w : (⟨2, ![1024, 1024]⟩ : Shape).Idx → EReal)
    (x0 x1 : Vec Ideal S1024x1024 .bf16) (y : (⟨2, ![1024, 1024]⟩ : Shape).Idx) (i : (⟨2, ![2048, 1024]⟩ : Shape).Idx)
    (h0 : ∀ k : Fin 1024, x0 (ix2 (y 0) k) = a (ix2 (i 0) k))
    (h1 : ∀ k : Fin 1024, x1 (ix2 k (y 1)) = w (ix2 k (i 1))) :
    k0_pay1 (F := Ideal) x0 x1 y = Cert.RelScore.mm0 a w i := by
  refine (congrArg (k0_pay1 (F := Ideal) x0 x1) (eq_ix2 y)).trans ((pay_apply x0 x1 (y 0) (y 1)).trans ?_)
  unfold Cert.RelScore.mm0
  exact Finset.sum_congr rfl fun k _ => by rw [h0 k, h1 k]

/-! ## The block written at a point -/

theorem hz : (![0, 0] : Fin 2 → Nat) = fun _ => 0 := funext fun a => by fin_cases a <;> rfl

/-- The block indices at point t, decided over the two points: the left array's block and the result's block are the row
    block t (column block 0); the right array's block is always block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- the buffer contents when the region is entered: a parameter throughout
variable (V : (c : Dev nD) → (b : Ref sig .tc) → Buf (Elt Ideal) ((c : Thread nD τ).loc b))

/-- What point t writes back is the row block t of the whole-array product of the two argument arrays. A block coordinate
    is block index times block size plus the inner coordinate: on the rows the left block and the result block share the
    block index t, on the columns every block index is 0. -/
theorem flushed_eq (c : Dev nD) (t : Fin cfg0.N) :
    (dat0 (F := Ideal) V c).flushed 2 t
      = ((cfg0.win 2).blk t).view.read (Elt Ideal) (Cert.RelScore.mm0 (V c main_v1) (V c main_v2)) := by
  show (cfg0.win 2).cut (grid0.coords t) ((dat0 V c).after 2 t) = _
  rw [after0_2]
  unfold out0_2
  rw [View.canon_unit_zero hz]
  simp only [View.ld_unit_zero (S := S1024x1024) hz]
  obtain ⟨e0, e1, e2, e3, e4, e5⟩ := idx_facts t
  funext j
  show k0_pay1 (F := Ideal) (iblk0 V c 0 t) (iblk0 V c 1 t) ((cfg0.win 2).xinj (grid0.coords t) j)
    = Cert.RelScore.mm0 (V c main_v1) (V c main_v2) (((cfg0.win 2).blk t).view.emb j)
  refine pay_eq_mm0 _ _ _ _ _ _ (fun k => ?_) (fun k => ?_)
  · -- row j 0 of the left block is row 1024 t + j 0 of the left array
    show V c main_v1 (((cfg0.win 0).blk t).view.emb (ix2 ((cfg0.win 2).xinj (grid0.coords t) j 0) k))
      = V c main_v1 (ix2 (((cfg0.win 2).blk t).view.emb j 0) k)
    refine congrArg (V c main_v1) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · -- column j 1 of the right block is column j 1 of the right array
    show V c main_v2 (((cfg0.win 1).blk t).view.emb (ix2 k ((cfg0.win 2).xinj (grid0.coords t) j 1)))
      = V c main_v2 (ix2 k (((cfg0.win 2).blk t).view.emb j 1))
    refine congrArg (V c main_v2) (funext fun a => Fin.ext ?_)
    match a with
    | ⟨0, _⟩ => show win0_1.index t (0 : Fin 2) * 1024 + 1 * k.val = k.val; omega
    | ⟨1, _⟩ => show win0_1.index t (1 : Fin 2) * 1024 + 1 * (j 1).val = win0_2.index t (1 : Fin 2) * 1024 + 1 * (j 1).val; omega

/-! ## The cover -/

/-- An array index lies in the block written at point t iff each coordinate lies in the block's range on its axis. -/
theorem mem_blk (t : Fin cfg0.N) (i : S2048x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v3).slice (win0_2.rect t)).set ↔ _
  rw [View.set_slice_whole, Rect.mem_set_unit]
  exact Iff.rfl

/-- Row r of the array is written by the point r / 1024: the two row blocks cover the array. -/
theorem covered (i : S2048x1024.Idx) :
    ∃ t : Fin cfg0.N, (cfg0.win 2).flush t = true ∧ i ∈ ((cfg0.win 2).blk t).view.set := by
  have hi0 : (i 0).val < 2048 := (i 0).isLt
  have hi1 : (i 1).val < 1024 := (i 1).isLt
  have hN : cfg0.N = 2 := N_0
  obtain ⟨t, ht⟩ : ∃ t : Fin cfg0.N, t.val = (i 0).val / 1024 := ⟨⟨(i 0).val / 1024, by rw [hN]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-! ## The whole array -/

/-- After the two points, the result array is the whole-array product of the two argument arrays as the region finds
    them: every point writes its block of that one array, and the blocks cover it. -/
theorem arr (c : Dev nD) :
    (Gen.dat0 (F := Ideal) V c).arrAt 2 cfg0.N = Cert.RelScore.mm0 (V c main_v1) (V c main_v2) :=
  (dat0 (F := Ideal) V c).arrAt_eq_of_cover 2 _ (fun t _ => flushed_eq V c t) covered

end Cert.KernelIdeal.Reg0

end
-- ==== Proof.Reg1.lean ====
/-
  The batched product of the second kernel region, as one whole-array function.

  The region runs over a grid of 16 heads by 2 row halves. At the point (h, b) the body reads the block of 1024 rows
  of head h of the left array (rows b * 1024 .. b * 1024 + 1023, 64 features each) and the whole head h of the right
  array (2048 rows of 64 features), multiplies the first by the transpose of the second (both operands contracted over
  their 64 features) into a zero accumulator, and stores the [1024, 2048] product as the block (h, b) of the result.
  So the entry (h, n, r) of the result is the sum over the 64 features d of left (h, n, d) * right (h, r, d), and the
  32 blocks tile the result array.
-/
import proofs.«117952_j88115549045052_2_alg».proof.Proof.Spec
import proofs.«117952_j88115549045052_2_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Reg1

open Idealize.ShloMosaic Idealize.ShloMosaic.TcCoe Idealize.SL.Sem Idealize.ShloMosaic.ValueIdx
open Idealize.ShloMosaic.Pipeline (Dat)
open Cert.KernelIdeal Cert.KernelIdeal.Gen

/-! ## The body's product at an entry -/

/-- The product's dimension record contracts one axis, of extent 64. -/
theorem contr_rank : (dot_S1024x64_S2048x64_S1024x2048_1_1_0_0_n_n).contr.rank = 1 := rfl
theorem contr_size : (dot_S1024x64_S2048x64_S1024x2048_1_1_0_0_n_n).contr.size ⟨0, by rw [contr_rank]; omega⟩ = 64 := rfl

/-- Entry (p, r) of the product of a [1024, 64] matrix with the transpose of a [2048, 64] matrix, into the zero
    accumulator: the sum over the 64 features of lhs (p, d) * rhs (r, d). -/
theorem matmul_nt_apply (lhs : FVec Ideal S1024x64 .bf16) (rhs : FVec Ideal S2048x64 .bf16) (p : Fin 1024) (r : Fin 2048) :
    matmul dot_S1024x64_S2048x64_S1024x2048_1_1_0_0_n_n none lhs rhs (constant (F := Ideal) S1024x2048 .f32 0x00000000#32) (ix2 p r)
      = ∑ d : Fin 64, lhs (ix2 p d) * rhs (ix2 r d) := by
  simp only [matmul]
  rw [Ideal.matmul_constant_zero_apply,
    ← Equiv.sum_comp (contrEquiv1 dot_S1024x64_S2048x64_S1024x2048_1_1_0_0_n_n 64 contr_rank contr_size).symm]
  refine Finset.sum_congr rfl fun d _ => ?_
  have hd := contrEquiv1_symm_val dot_S1024x64_S2048x64_S1024x2048_1_1_0_0_n_n 64 contr_rank contr_size d
  have el : (dot_S1024x64_S2048x64_S1024x2048_1_1_0_0_n_n).lhsIdx (ix2 p r)
      ((contrEquiv1 dot_S1024x64_S2048x64_S1024x2048_1_1_0_0_n_n 64 contr_rank contr_size).symm d) = ix2 p d :=
    funext fun a => Fin.ext (by
      match a with
      | ⟨0, _⟩ => rfl
      | ⟨1, _⟩ => exact ((dot_S1024x64_S2048x64_S1024x2048_1_1_0_0_n_n).lhsIdx_val_of_single (cl := 1) rfl _ _).trans hd)
  have er : (dot_S1024x64_S2048x64_S1024x2048_1_1_0_0_n_n).rhsIdx (ix2 p r)
      ((contrEquiv1 dot_S1024x64_S2048x64_S1024x2048_1_1_0_0_n_n 64 contr_rank contr_size).symm d) = ix2 r d :=
    funext fun a => Fin.ext (by
      match a with
      | ⟨0, _⟩ => rfl
      | ⟨1, _⟩ => exact ((dot_S1024x64_S2048x64_S1024x2048_1_1_0_0_n_n).rhsIdx_val_of_single (cr := 1) rfl _ _).trans hd)
  rw [el, er]

/-- The body's stored value at the entry (0, p, r) of its block: the casts only drop and add the unit axis. -/
theorem pay_apply (x0 : Vec Ideal S1x1024x64 .bf16) (x1 : Vec Ideal S1x2048x64 .bf16) (p : Fin 1024) (r : Fin 2048) :
    k1_pay1 (F := Ideal) x0 x1 (ix3 0 p r) = ∑ d : Fin 64, x0 (ix3 0 p d) * x1 (ix3 0 r d) := by
  unfold k1_pay1
  rw [shapeCast_apply _ _ (ix3 0 p r) (ix2 p r) (by rw [Shape.rowMajor_val_two, Shape.rowMajor_val_three]; show p.val * 2048 + r.val = (0 * 1024 + p.val) * 2048 + r.val; omega)]
  rw [matmul_nt_apply]
  refine Finset.sum_congr rfl fun d _ => ?_
  rw [shapeCast_apply x0 _ (ix2 p d) (ix3 0 p d) (by rw [Shape.rowMajor_val_two, Shape.rowMajor_val_three]; show (0 * 1024 + p.val) * 64 + d.val = p.val * 64 + d.val; omega),
    shapeCast_apply x1 _ (ix2 r d) (ix3 0 r d) (by rw [Shape.rowMajor_val_two, Shape.rowMajor_val_three]; show (0 * 2048 + r.val) * 64 + d.val = r.val * 64 + d.val; omega)]

/-- The same at any entry of the block: its leading coordinate is 0. -/
theorem pay_at (x0 : Vec Ideal S1x1024x64 .bf16) (x1 : Vec Ideal S1x2048x64 .bf16) (y : S1x1024x2048.Idx) :
    k1_pay1 (F := Ideal) x0 x1 y = ∑ d : Fin 64, x0 (ix3 0 (y 1) d) * x1 (ix3 0 (y 2) d) := by
  have hy : y = ix3 0 (y 1) (y 2) := funext fun a => Fin.ext (by
    match a with
    | ⟨0, _⟩ => show (y 0).val = 0; have h : (y 0).val < 1 := (y 0).isLt; omega
    | ⟨1, _⟩ => rfl
    | ⟨2, _⟩ => rfl)
  exact (congrArg (k1_pay1 (F := Ideal) x0 x1) hy).trans (pay_apply x0 x1 (y 1) (y 2))

/-! ## The blocks of the three windows over the grid -/

theorem hz3 : (![0, 0, 0] : Fin 3 → Nat) = fun _ => 0 := funext fun a => by fin_cases a <;> rfl

/-- The printed index maps, decided over the 32 grid points: the point t has the head t / 2 and the row half t % 2;
    the left block is (head, half, 0), the right block (head, 0, 0), the result block (head, half, 0). -/
theorem idx_facts : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = t.val % 2 ∧ win1_2.index t (2 : Fin 3) = 0 :=
  (by decide +kernel : ∀ t : Fin grid1.N, _)

section Region
variable (V : (c : Dev nD) → (b : Ref sig .tc) → Buf (Elt Ideal) ((c : Thread nD τ).loc b))

/-- What the point t writes back is the block t of the whole-array product of the two arrays as the region finds
    them. -/
theorem flushed_eq (c : Dev nD) (t : Fin cfg1.N) :
    (dat1 (F := Ideal) V c).flushed 2 t
      = ((cfg1.win 2).blk t).view.read (Elt Ideal) (Cert.RelScore.mm1 (V c main_v7) (V c main_v5)) := by
  show (cfg1.win 2).cut (grid1.coords t) ((dat1 V c).after 2 t) = _
  rw [after1_2]
  unfold out1_2
  rw [View.canon_unit_zero hz3]
  simp only [View.ld_unit_zero (S := S1x1024x64) hz3, View.ld_unit_zero (S := S1x2048x64) hz3]
  obtain ⟨a0, a1, a2, b0, b1, b2, c0, c1, c2⟩ := idx_facts t
  funext y
  show k1_pay1 (F := Ideal) (iblk1 V c 0 t) (iblk1 V c 1 t) y
    = Cert.RelScore.mm1 (V c main_v7) (V c main_v5) (((cfg1.win 2).blk t).view.emb y)
  rw [pay_at]
  unfold Cert.RelScore.mm1
  refine Finset.sum_congr rfl fun d _ => ?_
  have h0 : iblk1 V c 0 t (ix3 0 (y 1) d)
      = V c main_v7 (ix3 (((cfg1.win 2).blk t).view.emb y 0) (((cfg1.win 2).blk t).view.emb y 1) d) := by
    unfold iblk1
    rw [View.read_apply]
    show V c main_v7 (((cfg1.win 0).blk t).view.emb (ix3 0 (y 1) d)) = _
    congr 1
    funext a; apply Fin.ext
    match a with
    | ⟨0, _⟩ => show win1_0.index t (0 : Fin 3) * 1 + 1 * 0 = win1_2.index t (0 : Fin 3) * 1 + 1 * (y 0).val; have hy0 : (y 0).val < 1 := (y 0).isLt; omega
    | ⟨1, _⟩ => show win1_0.index t (1 : Fin 3) * 1024 + 1 * (y 1).val = win1_2.index t (1 : Fin 3) * 1024 + 1 * (y 1).val; omega
    | ⟨2, _⟩ => show win1_0.index t (2 : Fin 3) * 64 + 1 * d.val = d.val; omega
  have h1 : iblk1 V c 1 t (ix3 0 (y 2) d)
      = V c main_v5 (ix3 (((cfg1.win 2).blk t).view.emb y 0) (((cfg1.win 2).blk t).view.emb y 2) d) := by
    unfold iblk1
    rw [View.read_apply]
    show V c main_v5 (((cfg1.win 1).blk t).view.emb (ix3 0 (y 2) d)) = _
    congr 1
    funext a; apply Fin.ext
    match a with
    | ⟨0, _⟩ => show win1_1.index t (0 : Fin 3) * 1 + 1 * 0 = win1_2.index t (0 : Fin 3) * 1 + 1 * (y 0).val; have hy0 : (y 0).val < 1 := (y 0).isLt; omega
    | ⟨1, _⟩ => show win1_1.index t (1 : Fin 3) * 2048 + 1 * (y 2).val = win1_2.index t (2 : Fin 3) * 2048 + 1 * (y 2).val; omega
    | ⟨2, _⟩ => show win1_1.index t (2 : Fin 3) * 64 + 1 * d.val = d.val; omega
  rw [h0, h1]

end Region

/-! ## The result blocks tile the result array -/

/-- An index of the result array is in the block of the point t iff each coordinate is in the block's range on its
    axis. -/
theorem mem_blk (t : Fin cfg1.N) (i : S16x2048x2048.Idx) :
    i ∈ ((cfg1.win 2).blk t).view.set ↔ ∀ a : Fin 3, win1_2.index t a * S1x1024x2048.size a ≤ (i a).val
      ∧ (i a).val < win1_2.index t a * S1x1024x2048.size a + S1x1024x2048.size a := by
  show i ∈ ((View.whole main_v8).slice (win1_2.rect t)).set ↔ _
  rw [View.set_slice_whole, Rect.mem_set_unit]
  exact Iff.rfl

/-- The entry (h, n, r) of the result is in the block of the point h * 2 + n / 1024, which is written back. -/
theorem cover (i : S16x2048x2048.Idx) :
    ∃ t : Fin cfg1.N, (cfg1.win 2).flush t = true ∧ i ∈ ((cfg1.win 2).blk t).view.set := by
  have h0 : (i 0).val < 16 := (i 0).isLt
  have h1 : (i 1).val < 2048 := (i 1).isLt
  have h2 : (i 2).val < 2048 := (i 2).isLt
  have hN : cfg1.N = 32 := N_1
  obtain ⟨t, ht⟩ : ∃ t : Fin cfg1.N, t.val = (i 0).val * 2 + (i 1).val / 1024 :=
    ⟨⟨(i 0).val * 2 + (i 1).val / 1024, by rw [hN]; omega⟩, rfl⟩
  obtain ⟨-, -, -, -, -, -, c0, c1, c2⟩ := idx_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 2048 ≤ (i 2).val ∧ (i 2).val < win1_2.index t (2 : Fin 3) * 2048 + 2048; omega

/-! ## The result array after the region -/

section Whole
variable (V : (c : Dev nD) → (b : Ref sig .tc) → Buf (Elt Ideal) ((c : Thread nD τ).loc b))

/-- The result array after the region's write-backs is the whole-array product, head by head, of the left array with
    the transposed right array, as the region finds them. -/
theorem arr (c : Dev nD) :
    (dat1 (F := Ideal) V c).arrAt 2 cfg1.N = Cert.RelScore.mm1 (V c main_v7) (V c main_v5) :=
  (dat1 (F := Ideal) V c).arrAt_eq_of_cover 2 (Cert.RelScore.mm1 (V c main_v7) (V c main_v5))
    (fun t _ => flushed_eq V c t) cover

end Whole

end Cert.KernelIdeal.Reg1

end
-- ==== Proof.RefTerm.lean ====
/-
  The reference's stages as pure functions of its argument arrays.

  The position rows are fetched through a table of row numbers (0, 1, ..., 2046 clipped to [0, 2046], a negative one
  wrapped by 2047), projected by the dense matrix and cut into heads; the query is re-read as 16 heads of 2048 rows;
  the two are contracted head by head over the 64 features; the scores of one (head, batch) pair, laid out flat, are
  then picked at the flat positions (1023 + j - s) + 2047 * s, a position outside [0, 2096127] yielding a filler value.
-/
import proofs.«117952_j88115549045052_2_alg».proof.ReferenceIdeal

noncomputable section

namespace Cert.ReferenceIdeal.RefTerm

open Cert.ReferenceIdeal Idealize.ShloMosaic
open Facts₀ Facts

variable {F : FTy → Type} [FloatOps F] [Facts]

/-- The row numbers of the first gather, as a column: 0 .. 2046 clipped into [0, 2046], then a negative one moved up
    by 2047. -/
def rowIdx : (⟨S2047x1, .i32⟩ : BufTy).Contents (Elt F) :=
  let v0 : (⟨S2047, .i32⟩ : BufTy).Contents (Elt F) := iotaInDim S2047 32 0
  let lo : (⟨S_, .i32⟩ : BufTy).Contents (Elt F) := constantI S_ 32 0#32
  let hi : (⟨S_, .i32⟩ : BufTy).Contents (Elt F) := constantI S_ 32 2046#32
  let c2 : (⟨S2047, .i32⟩ : BufTy).Contents (Elt F) := maxsi (broadcastInDim S2047 ![] bcast_S_S2047 (id lo)) v0
  let v1 : (⟨S2047, .i32⟩ : BufTy).Contents (Elt F) := minsi (broadcastInDim S2047 ![] bcast_S_S2047 (id hi)) c2
  let z : (⟨S2047, .i32⟩ : BufTy).Contents (Elt F) := broadcastInDim S2047 ![] bcast_S_S2047 (constantI S_ 32 0#32)
  let v3 : (⟨S2047, .i1⟩ : BufTy).Contents (Elt F) := cmpi .slt v1 z
  let v4 : (⟨S2047, .i32⟩ : BufTy).Contents (Elt F) := broadcastInDim S2047 ![] bcast_S_S2047 (constantI S_ 32 2047#32)
  let v5 : (⟨S2047, .i32⟩ : BufTy).Contents (Elt F) := addi v1 v4
  let v6 : (⟨S2047, .i32⟩ : BufTy).Contents (Elt F) := select v3 v5 v1
  broadcastInDim S2047x1 ![0] bcast_S2047_S2047x1_0 v6

/-- The projected position rows: the gathered rows times the dense matrix. -/
def projR (pos : (⟨S2047x1024, .f32⟩ : BufTy).Contents (Elt F)) (w : (⟨S1024x1024, .f32⟩ : BufTy).Contents (Elt F)) :
    (⟨S2047x1024, .f32⟩ : BufTy).Contents (Elt F) :=
  Host.dotGeneral dot_S2047x1024_S1024x1024_S2047x1024_1_0_0_1_n_n none
    (Host.gather gather_S2047x1024_S2047x1_S2047x1024_1_0_n_n_0_1_11024 pos (rowIdx (F := F))) w

/-- The projected rows cut into 16 heads of 64 features, head first. -/
def embT (pos : (⟨S2047x1024, .f32⟩ : BufTy).Contents (Elt F)) (w : (⟨S1024x1024, .f32⟩ : BufTy).Contents (Elt F)) :
    (⟨S16x2047x64, .f32⟩ : BufTy).Contents (Elt F) :=
  transpose S16x2047x64 [1, 0, 2] (shapeCast S2047x16x64 (projR pos w) shapeCasts_S2047x1024_S2047x16x64) transposes_S2047x16x64_S16x2047x64_1_0_2

/-- The query re-read as 16 heads of 2048 rows. -/
def qR (q : (⟨S2x16x1024x64, .f32⟩ : BufTy).Contents (Elt F)) : (⟨S16x2048x64, .f32⟩ : BufTy).Contents (Elt F) :=
  shapeCast S16x2048x64 q shapeCasts_S2x16x1024x64_S16x2048x64

/-- The scores: head by head, every query row against every projected row. -/
def scoreR (q : (⟨S2x16x1024x64, .f32⟩ : BufTy).Contents (Elt F)) (pos : (⟨S2047x1024, .f32⟩ : BufTy).Contents (Elt F))
    (w : (⟨S1024x1024, .f32⟩ : BufTy).Contents (Elt F)) : (⟨S16x2048x2047, .f32⟩ : BufTy).Contents (Elt F) :=
  Host.dotGeneral dot_S16x2048x64_S16x2047x64_S16x2048x2047_2_2_1_1_0_0 none (qR q) (embT pos w)

/-- The flat positions picked by the shift: (1023 + j) - s + 2047 * s at (s, j), laid out flat. -/
def relIdx : (⟨S1048576, .i32⟩ : BufTy).Contents (Elt F) :=
  let v14 : (⟨S1024, .i32⟩ : BufTy).Contents (Elt F) := iotaInDim S1024 32 0
  let v15 : (⟨S1024, .i32⟩ : BufTy).Contents (Elt F) := broadcastInDim S1024 ![] bcast_S_S1024 (constantI S_ 32 1023#32)
  let v16 : (⟨S1024, .i32⟩ : BufTy).Contents (Elt F) := addi v15 v14
  let v17 : (⟨S1x1024, .i32⟩ : BufTy).Contents (Elt F) := broadcastInDim S1x1024 ![1] bcast_S1024_S1x1024_1 v16
  let v18 : (⟨S1024, .i32⟩ : BufTy).Contents (Elt F) := iotaInDim S1024 32 0
  let v19 : (⟨S1024x1, .i32⟩ : BufTy).Contents (Elt F) := broadcastInDim S1024x1 ![0] bcast_S1024_S1024x1_0 v18
  let v20 : (⟨S1024x1024, .i32⟩ : BufTy).Contents (Elt F) := broadcastInDim S1024x1024 ![0, 1] bcast_S1x1024_S1024x1024_0_1 v17
  let v21 : (⟨S1024x1024, .i32⟩ : BufTy).Contents (Elt F) := broadcastInDim S1024x1024 ![0, 1] bcast_S1024x1_S1024x1024_0_1 v19
  let v22 : (⟨S1024x1024, .i32⟩ : BufTy).Contents (Elt F) := subi v20 v21
  let v23 : (⟨S1024, .i32⟩ : BufTy).Contents (Elt F) := iotaInDim S1024 32 0
  let v24 : (⟨S1024x1, .i32⟩ : BufTy).Contents (Elt F) := broadcastInDim S1024x1 ![0] bcast_S1024_S1024x1_0 v23
  let v25 : (⟨S1024x1, .i32⟩ : BufTy).Contents (Elt F) := broadcastInDim S1024x1 ![] bcast_S_S1024x1 (constantI S_ 32 2047#32)
  let v26 : (⟨S1024x1, .i32⟩ : BufTy).Contents (Elt F) := muli v24 v25
  let v27 : (⟨S1024x1024, .i32⟩ : BufTy).Contents (Elt F) := broadcastInDim S1024x1024 ![0, 1] bcast_S1024x1_S1024x1024_0_1 v26
  let v28 : (⟨S1024x1024, .i32⟩ : BufTy).Contents (Elt F) := addi v22 v27
  shapeCast S1048576 v28 shapeCasts_S1024x1024_S1048576

/-- The pick along the last axis: a negative position is first moved up by the axis length; the picked value is
    kept where the position lies in [0, 2096127] and replaced by a filler elsewhere. -/
def takeR (x : (⟨S16x2x2096128, .f32⟩ : BufTy).Contents (Elt F)) (idx : (⟨S1048576, .i32⟩ : BufTy).Contents (Elt F)) :
    (⟨S16x2x1048576, .f32⟩ : BufTy).Contents (Elt F) :=
  let v0 : (⟨S1048576, .i32⟩ : BufTy).Contents (Elt F) := broadcastInDim S1048576 ![] bcast_S_S1048576 (constantI S_ 32 0#32)
  let v1 : (⟨S1048576, .i1⟩ : BufTy).Contents (Elt F) := cmpi .slt idx v0
  let v2 : (⟨S1048576, .i32⟩ : BufTy).Contents (Elt F) := broadcastInDim S1048576 ![] bcast_S_S1048576 (constantI S_ 32 2096128#32)
  let v3 : (⟨S1048576, .i32⟩ : BufTy).Contents (Elt F) := addi idx v2
  let v4 : (⟨S1048576, .i32⟩ : BufTy).Contents (Elt F) := select v1 v3 idx
  let v5 : (⟨S1048576x1, .i32⟩ : BufTy).Contents (Elt F) := broadcastInDim S1048576x1 ![0] bcast_S1048576_S1048576x1_0 v4
  let v6 : (⟨S1048576x1, .i32⟩ : BufTy).Contents (Elt F) := broadcastInDim S1048576x1 ![] bcast_S_S1048576x1 (constantI S_ 32 0#32)
  let v7 : (⟨S1048576x1, .i1⟩ : BufTy).Contents (Elt F) := cmpi .sge v5 v6
  let v8 : (⟨S1x1, .i32⟩ : BufTy).Contents (Elt F) := broadcastInDim S1x1 ![1] bcast_S1_S1x1_1 (constantI S1 32 2096127#32)
  let v9 : (⟨S1048576x1, .i32⟩ : BufTy).Contents (Elt F) := broadcastInDim S1048576x1 ![0, 1] bcast_S1x1_S1048576x1_0_1 v8
  let v10 : (⟨S1048576x1, .i1⟩ : BufTy).Contents (Elt F) := cmpi .sle v5 v9
  let v11 : (⟨S1048576x1, .i1⟩ : BufTy).Contents (Elt F) := andi v7 v10
  let v12 : (⟨S1048576, .i1⟩ : BufTy).Contents (Elt F) := Host.reduce IntOp.andi v11 (constantI S_ 1 1#1) reducesTo_S1048576x1_S1048576_d1 h_S_
  let v13 : (⟨S16x2x1048576, .f32⟩ : BufTy).Contents (Elt F) := Host.gather gather_S16x2x2096128_S1048576x1_S16x2x1048576_01_2_n_n_2_1_1621 x v5
  let v14 : (⟨S16x2x1048576, .i1⟩ : BufTy).Contents (Elt F) := broadcastInDim S16x2x1048576 ![2] bcast_S1048576_S16x2x1048576_2 v12
  let v15 : (⟨S16x2x1048576, .f32⟩ : BufTy).Contents (Elt F) := broadcastInDim S16x2x1048576 ![] bcast_S_S16x2x1048576 (constant S_ .f32 0x7FC00000#32)
  select v14 v13 v15

/-- The reference's result as one function of its three arguments. -/
def refOut (q : (⟨S2x16x1024x64, .f32⟩ : BufTy).Contents (Elt F)) (pos : (⟨S2047x1024, .f32⟩ : BufTy).Contents (Elt F))
    (w : (⟨S1024x1024, .f32⟩ : BufTy).Contents (Elt F)) : (⟨S2x16x1024x1024, .f32⟩ : BufTy).Contents (Elt F) :=
  shapeCast S2x16x1024x1024
    (takeR (shapeCast S16x2x2096128 (scoreR q pos w) shapeCasts_S16x2048x2047_S16x2x2096128) (relIdx (F := F)))
    shapeCasts_S16x2x1048576_S2x16x1024x1024

end Cert.ReferenceIdeal.RefTerm

end
-- ==== Proof.RefRun.lean ====
/-
  The reference program's run, read back.

  The reference is a straight line of array operations: its own thirty-seven and, at the two places where it
  calls an outlined function, that function's operations over the buffers of the call (the clipping of the row
  numbers: six; the pick along the last axis: twenty-three, one of them the selection of an inner outlined
  function). Listed in order they are sixty-six operations, each writing one buffer of its own. Every execution
  of the line ends with each buffer holding the composition of the operations that lead to it, applied to the
  three argument arrays; for the result buffer that composition is the function `RefTerm.refOut`, whose stages
  spell the same operations in the same order. The argument buffers are written by no operation and keep their
  contents.

  Nothing is evaluated anywhere: the equation between the fold of the line and the stage functions is an
  identity of terms, read off operation by operation (which buffer an operation writes is decided on the buffers'
  numbers).
-/
import proofs.«117952_j88115549045052_2_alg».proof.Proof.Spec
import proofs.«117952_j88115549045052_2_alg».proof.Proof.RefTerm
import proofs.«117952_j88115549045052_2_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

variable {F : FTy → Type} [FloatOps F]

/-- The reference's sixty-six operations in order: the callees' operations stand at their call sites, over the
    buffers of that call. -/
abbrev ops : List (HloOp τ sig (Elt F)) :=
  [ nullary main_v0 (iotaInDim S2047 32 0),
    nullary main_c (constantI S_ 32 0#32),
    nullary main_c_0 (constantI S_ 32 2046#32),
    TRef.unary (.of main_c : TRef sig ⟨S_, .i32⟩) main_call0.v0 id,
    TRef.unary main_call0.v0 main_call0.v1 (broadcastInDim S2047 ![] bcast_S_S2047),
    TRef.binary main_call0.v1 (.of main_v0 : TRef sig ⟨S2047, .i32⟩) main_call0.v2 maxsi,
    TRef.unary (.of main_c_0 : TRef sig ⟨S_, .i32⟩) main_call0.v3 id,
    TRef.unary main_call0.v3 main_call0.v4 (broadcastInDim S2047 ![] bcast_S_S2047),
    TRef.binary main_call0.v4 main_call0.v2 main_call0.v5 minsi,
    nullary main_c_1 (constantI S_ 32 0#32),
    unary main_c_1 main_v2 (broadcastInDim S2047 ![] bcast_S_S2047 : (⟨S_, .i32⟩ : BufTy).Contents (Elt F) → (⟨S2047, .i32⟩ : BufTy).Contents (Elt F)),
    binary main_v1 main_v2 main_v3 (cmpi .slt : (⟨S2047, .i32⟩ : BufTy).Contents (Elt F) → (⟨S2047, .i32⟩ : BufTy).Contents (Elt F) → (⟨S2047, .i1⟩ : BufTy).Contents (Elt F)),
    nullary main_c_2 (constantI S_ 32 2047#32),
    unary main_c_2 main_v4 (broadcastInDim S2047 ![] bcast_S_S2047 : (⟨S_, .i32⟩ : BufTy).Contents (Elt F) → (⟨S2047, .i32⟩ : BufTy).Contents (Elt F)),
    binary main_v1 main_v4 main_v5 (addi : (⟨S2047, .i32⟩ : BufTy).Contents (Elt F) → (⟨S2047, .i32⟩ : BufTy).Contents (Elt F) → (⟨S2047, .i32⟩ : BufTy).Contents (Elt F)),
    ternary main_v3 main_v5 main_v1 main_v6 (select : (⟨S2047, .i1⟩ : BufTy).Contents (Elt F) → (⟨S2047, .i32⟩ : BufTy).Contents (Elt F) → (⟨S2047, .i32⟩ : BufTy).Contents (Elt F) → (⟨S2047, .i32⟩ : BufTy).Contents (Elt F)),
    unary main_v6 main_v7 (broadcastInDim S2047x1 ![0] bcast_S2047_S2047x1_0 : (⟨S2047, .i32⟩ : BufTy).Contents (Elt F) → (⟨S2047x1, .i32⟩ : BufTy).Contents (Elt F)),
    binary main_arg1 main_v7 main_v8 ((fun x i => Host.gather gather_S2047x1024_S2047x1_S2047x1024_1_0_n_n_0_1_11024 x i) : (⟨S2047x1024, .f32⟩ : BufTy).Contents (Elt F) → (⟨S2047x1, .i32⟩ : BufTy).Contents (Elt F) → (⟨S2047x1024, .f32⟩ : BufTy).Contents (Elt F)),
    binary main_v8 main_arg2 main_v9 ((fun l r => Host.dotGeneral dot_S2047x1024_S1024x1024_S2047x1024_1_0_0_1_n_n none l r) : (⟨S2047x1024, .f32⟩ : BufTy).Contents (Elt F) → (⟨S1024x1024, .f32⟩ : BufTy).Contents (Elt F) → (⟨S2047x1024, .f32⟩ : BufTy).Contents (Elt F)),
    reshape main_v9 main_v10 rfl shapeCasts_S2047x1024_S2047x16x64,
    unary main_v10 main_v11 ((transpose S16x2047x64 [1, 0, 2] · transposes_S2047x16x64_S16x2047x64_1_0_2) : (⟨S2047x16x64, .f32⟩ : BufTy).Contents (Elt F) → (⟨S16x2047x64, .f32⟩ : BufTy).Contents (Elt F)),
    reshape main_arg0 main_v12 rfl shapeCasts_S2x16x1024x64_S16x2048x64,
    binary main_v12 main_v11 main_v13 ((fun l r => Host.dotGeneral dot_S16x2048x64_S16x2047x64_S16x2048x2047_2_2_1_1_0_0 none l r) : (⟨S16x2048x64, .f32⟩ : BufTy).Contents (Elt F) → (⟨S16x2047x64, .f32⟩ : BufTy).Contents (Elt F) → (⟨S16x2048x2047, .f32⟩ : BufTy).Contents (Elt F)),
    nullary main_v14 (iotaInDim S1024 32 0),
    nullary main_c_3 (constantI S_ 32 1023#32),
    unary main_c_3 main_v15 (broadcastInDim S1024 ![] bcast_S_S1024 : (⟨S_, .i32⟩ : BufTy).Contents (Elt F) → (⟨S1024, .i32⟩ : BufTy).Contents (Elt F)),
    binary main_v15 main_v14 main_v16 (addi : (⟨S1024, .i32⟩ : BufTy).Contents (Elt F) → (⟨S1024, .i32⟩ : BufTy).Contents (Elt F) → (⟨S1024, .i32⟩ : BufTy).Contents (Elt F)),
    unary main_v16 main_v17 (broadcastInDim S1x1024 ![1] bcast_S1024_S1x1024_1 : (⟨S1024, .i32⟩ : BufTy).Contents (Elt F) → (⟨S1x1024, .i32⟩ : BufTy).Contents (Elt F)),
    nullary main_v18 (iotaInDim S1024 32 0),
    unary main_v18 main_v19 (broadcastInDim S1024x1 ![0] bcast_S1024_S1024x1_0 : (⟨S1024, .i32⟩ : BufTy).Contents (Elt F) → (⟨S1024x1, .i32⟩ : BufTy).Contents (Elt F)),
    unary main_v17 main_v20 (broadcastInDim S1024x1024 ![0, 1] bcast_S1x1024_S1024x1024_0_1 : (⟨S1x1024, .i32⟩ : BufTy).Contents (Elt F) → (⟨S1024x1024, .i32⟩ : BufTy).Contents (Elt F)),
    unary main_v19 main_v21 (broadcastInDim S1024x1024 ![0, 1] bcast_S1024x1_S1024x1024_0_1 : (⟨S1024x1, .i32⟩ : BufTy).Contents (Elt F) → (⟨S1024x1024, .i32⟩ : BufTy).Contents (Elt F)),
    binary main_v20 main_v21 main_v22 (subi : (⟨S1024x1024, .i32⟩ : BufTy).Contents (Elt F) → (⟨S1024x1024, .i32⟩ : BufTy).Contents (Elt F) → (⟨S1024x1024, .i32⟩ : BufTy).Contents (Elt F)),
    nullary main_v23 (iotaInDim S1024 32 0),
    unary main_v23 main_v24 (broadcastInDim S1024x1 ![0] bcast_S1024_S1024x1_0 : (⟨S1024, .i32⟩ : BufTy).Contents (Elt F) → (⟨S1024x1, .i32⟩ : BufTy).Contents (Elt F)),
    nullary main_c_4 (constantI S_ 32 2047#32),
    unary main_c_4 main_v25 (broadcastInDim S1024x1 ![] bcast_S_S1024x1 : (⟨S_, .i32⟩ : BufTy).Contents (Elt F) → (⟨S1024x1, .i32⟩ : BufTy).Contents (Elt F)),
    binary main_v24 main_v25 main_v26 (muli : (⟨S1024x1, .i32⟩ : BufTy).Contents (Elt F) → (⟨S1024x1, .i32⟩ : BufTy).Contents (Elt F) → (⟨S1024x1, .i32⟩ : BufTy).Contents (Elt F)),
    unary main_v26 main_v27 (broadcastInDim S1024x1024 ![0, 1] bcast_S1024x1_S1024x1024_0_1 : (⟨S1024x1, .i32⟩ : BufTy).Contents (Elt F) → (⟨S1024x1024, .i32⟩ : BufTy).Contents (Elt F)),
    binary main_v22 main_v27 main_v28 (addi : (⟨S1024x1024, .i32⟩ : BufTy).Contents (Elt F) → (⟨S1024x1024, .i32⟩ : BufTy).Contents (Elt F) → (⟨S1024x1024, .i32⟩ : BufTy).Contents (Elt F)),
    reshape main_v28 main_v29 rfl shapeCasts_S1024x1024_S1048576,
    reshape main_v13 main_v30 rfl shapeCasts_S16x2048x2047_S16x2x2096128,
    TRef.nullary main_call1.c (constantI S_ 32 0#32),
    TRef.unary main_call1.c main_call1.v0 (broadcastInDim S1048576 ![] bcast_S_S1048576),
    TRef.binary (.of main_v29 : TRef sig ⟨S1048576, .i32⟩) main_call1.v0 main_call1.v1 (cmpi .slt),
    TRef.nullary main_call1.c_0 (constantI S_ 32 2096128#32),
    TRef.unary main_call1.c_0 main_call1.v2 (broadcastInDim S1048576 ![] bcast_S_S1048576),
    TRef.binary (.of main_v29 : TRef sig ⟨S1048576, .i32⟩) main_call1.v2 main_call1.v3 addi,
    TRef.ternary main_call1.v1 main_call1.v3 (.of main_v29 : TRef sig ⟨S1048576, .i32⟩) main_call1.call0.v0 select,
    TRef.unary main_call1.call0.v0 main_call1.v5 (broadcastInDim S1048576x1 ![0] bcast_S1048576_S1048576x1_0),
    TRef.nullary main_call1.c_1 (constantI S1 32 2096127#32),
    TRef.nullary main_call1.c_2 (constantI S_ 32 0#32),
    TRef.unary main_call1.c_2 main_call1.v6 (broadcastInDim S1048576x1 ![] bcast_S_S1048576x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S1048576x1 ![0, 1] bcast_S1x1_S1048576x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S1048576x1_S1048576_d1 h_S_),
    TRef.binary (.of main_v30 : TRef sig ⟨S16x2x2096128, .f32⟩) main_call1.v5 main_call1.v13 (fun x i => Host.gather gather_S16x2x2096128_S1048576x1_S16x2x1048576_01_2_n_n_2_1_1621 x i),
    TRef.unary main_call1.v12 main_call1.v14 (broadcastInDim S16x2x1048576 ![2] bcast_S1048576_S16x2x1048576_2),
    TRef.nullary main_call1.cst (constant S_ .f32 0x7FC00000#32),
    TRef.unary main_call1.cst main_call1.v15 (broadcastInDim S16x2x1048576 ![] bcast_S_S16x2x1048576),
    TRef.ternary main_call1.v14 main_call1.v13 main_call1.v15 main_call1.v16 select,
    reshape main_v31 main_v32 rfl shapeCasts_S16x2x1048576_S2x16x1024x1024 ]

-- sixty-six binds re-associated: the rewriting recurses once per statement
set_option maxRecDepth 4096 in
/-- The program is that straight line: the outlined functions' definitions unfolded at their calls, both sides are
    one chain of steps once sequencing is re-associated. -/
theorem main_eq (c : Dev nD) : main (F := F) c = seq ops := by
  simp only [main, fn_clip.body, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., reshape_bufs_sub .., unary_bufs_sub .., reshape_bufs_sub .., binary_bufs_sub .., nullary_bufs_sub ..,
    nullary_bufs_sub .., unary_bufs_sub .., binary_bufs_sub .., unary_bufs_sub .., nullary_bufs_sub .., unary_bufs_sub ..,
    unary_bufs_sub .., unary_bufs_sub .., binary_bufs_sub .., nullary_bufs_sub .., unary_bufs_sub .., nullary_bufs_sub ..,
    unary_bufs_sub .., binary_bufs_sub .., unary_bufs_sub .., binary_bufs_sub .., reshape_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..⟩

/-- Contents moved to a buffer's own type and back are the contents. -/
theorem ofBuf_toBuf {T : BufTy} (x : TRef sig T) (v : T.Contents (Elt F)) : x.ofBuf (x.toBuf v) = v := by
  rcases x with ⟨r, h, a, b⟩
  subst h
  rfl

/-! At a buffer given by its number the move between the value's type and the buffer's own type is the identity: the
    two types are the same type. One statement per buffer shared between the program's own operations and an outlined
    function's. -/
theorem ofBuf_main_c (p q s) (v : (⟨S_, .i32⟩ : BufTy).Contents (Elt F)) :
    (TRef.of main_c p q s : TRef sig ⟨S_, .i32⟩).ofBuf v = v := rfl
theorem ofBuf_main_c_0 (p q s) (v : (⟨S_, .i32⟩ : BufTy).Contents (Elt F)) :
    (TRef.of main_c_0 p q s : TRef sig ⟨S_, .i32⟩).ofBuf v = v := rfl
theorem ofBuf_main_v0 (p q s) (v : (⟨S2047, .i32⟩ : BufTy).Contents (Elt F)) :
    (TRef.of main_v0 p q s : TRef sig ⟨S2047, .i32⟩).ofBuf v = v := rfl
theorem ofBuf_main_v29 (p q s) (v : (⟨S1048576, .i32⟩ : BufTy).Contents (Elt F)) :
    (TRef.of main_v29 p q s : TRef sig ⟨S1048576, .i32⟩).ofBuf v = v := rfl
theorem ofBuf_main_v30 (p q s) (v : (⟨S16x2x2096128, .f32⟩ : BufTy).Contents (Elt F)) :
    (TRef.of main_v30 p q s : TRef sig ⟨S16x2x2096128, .f32⟩).ofBuf v = v := rfl
theorem toBuf_main_v1 (p q s) (v : (⟨S2047, .i32⟩ : BufTy).Contents (Elt F)) :
    (TRef.of main_v1 p q s : TRef sig ⟨S2047, .i32⟩).toBuf v = v := rfl
theorem toBuf_main_v31 (p q s) (v : (⟨S16x2x1048576, .f32⟩ : BufTy).Contents (Elt F)) :
    (TRef.of main_v31 p q s : TRef sig ⟨S16x2x1048576, .f32⟩).toBuf v = v := rfl

attribute [local irreducible] Host.gather Host.reduce transpose shapeCast broadcastInDim iotaInDim select cmpi in
set_option maxRecDepth 8192 in
/-- The fold of the line at the result buffer is the stage functions' composition: each operation's result read off
    at its own buffer, the moves between a value's type and its buffer's type removed, what is left is the same term
    on both sides. -/
theorem out_eq (V : Valuation τ sig (Elt F)) :
    after ops V (main_v32 : DevRef τ sig)
      = RefTerm.refOut (V (main_arg0 : DevRef τ sig)) (V (main_arg1 : DevRef τ sig)) (V (main_arg2 : DevRef τ sig)) := by
  after_results_simp
  simp only [ofBuf_toBuf, ofBuf_main_c, ofBuf_main_c_0, ofBuf_main_v0, ofBuf_main_v29, ofBuf_main_v30, toBuf_main_v1, toBuf_main_v31]
  unfold RefTerm.refOut RefTerm.takeR RefTerm.relIdx RefTerm.scoreR RefTerm.qR RefTerm.embT RefTerm.projR RefTerm.rowIdx
  rfl

/-- An argument buffer is written by no operation of the line. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters: every weakly fair execution of the
    reference terminates with the result buffer at the stage functions' composition of the three arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32)
          = RefTerm.refOut (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v32).trans (out_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefRun

end
-- ==== Proof.LibGatherRows.lean ====
/-
  A host gather of whole rows, read at an index.

  The operand is a matrix [N, B]; the start indices are a column [M, 1] of signed integers, one per result row; the
  result is the matrix [M, B] whose row k is the operand's row at the start index of k. A gather clamps every start
  index so that the slice fits inside the operand: the row that is read is the start index taken as a signed integer,
  negative values becoming 0 and values past the last row becoming N - 1. The lane coordinate passes through.
-/
import Idealize.ShloMosaic.PureOps
import Idealize.ShloMosaic.Lib.ValueIdx

noncomputable section

namespace Cert.GatherRows

open Idealize.ShloMosaic Idealize.ShloMosaic.ValueIdx

variable {α : Type}

/-- The dimension numbers of `x[idx]` on a matrix `[N, B]` at `M` row indices stored as a column `[M, 1]`: the row
    axis is collapsed and indexed, the lane axis is the slice. -/
abbrev rowGather (N M B : ℕ)
    (wf : GatherDims.WF ⟨2, ![N, B]⟩ ⟨2, ![M, 1]⟩ ⟨2, ![M, B]⟩ [1] [0] [] [0] [] 1 ![1, B]) :
    GatherDims ⟨2, ![N, B]⟩ ⟨2, ![M, 1]⟩ ⟨2, ![M, B]⟩ where
  offsetDims := [1]
  collapsedSliceDims := [0]
  operandBatchingDims := []
  startIndicesBatchingDims := []
  startIndexMap := [0]
  indexVectorDim := 1
  sliceSizes := ![1, B]
  wf := wf

/-- The operand row that result row `k` reads: its start index as a signed integer, clamped into `[0, N - 1]`. -/
def row {N M w : ℕ} (hN : 0 < N) (idx : IVec ⟨2, ![M, 1]⟩ w) (k : Fin M) : Fin N :=
  ⟨min (idx (ix2 k (0 : Fin 1))).toInt.toNat (N - 1), by omega⟩

/-- A start index that already names a row `r` of the operand is not moved by the clamp. -/
theorem row_of_toInt {N M w : ℕ} (hN : 0 < N) (idx : IVec ⟨2, ![M, 1]⟩ w) (k : Fin M) (r : Fin N)
    (h : (idx (ix2 k (0 : Fin 1))).toInt = (r.val : ℤ)) : row hN idx k = r := by
  refine Fin.ext ?_
  show min (idx (ix2 k (0 : Fin 1))).toInt.toNat (N - 1) = r.val
  rw [h]
  have := r.isLt
  simp only [Int.toNat_natCast]
  omega

/-- THE ROW GATHER READ AT `(k, q)`: the operand at the clamped row of `k`, lane `q`. -/
theorem gather_rows_apply {N M B w : ℕ} (hN : 0 < N) (wf) (x : (⟨2, ![N, B]⟩ : Shape).Idx → α)
    (idx : IVec ⟨2, ![M, 1]⟩ w) (k : Fin M) (q : Fin B) :
    Host.gather (rowGather N M B wf) x idx (ix2 k q) = x (ix2 (row hN idx k) q) := by
  unfold Host.gather
  congr 1
  funext a
  refine Fin.ext ?_
  match a with
  | ⟨0, _⟩ =>
    show (rowGather N M B wf).start (ix2 k q) idx 0 + (rowGather N M B wf).batchCoord (ix2 k q) 0
      + (rowGather N M B wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M B wf).startIndexMap from List.mem_singleton.mpr rfl)]
    have hsi : (rowGather N M B wf).siIdx (ix2 k q) ⟨List.idxOf (0 : Fin 2) (rowGather N M B wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGather N M B wf).start (ix2 k q) idx 1 + (rowGather N M B wf).batchCoord (ix2 k q) 1
      + (rowGather N M B wf).offCoord (ix2 k q) 1 = q.val
    rw [GatherDims.batchCoord_eq_zero _ _ _ List.not_mem_nil]
    unfold GatherDims.start
    rw [dif_neg (show ¬ (1 : Fin 2) ∈ (rowGather N M B wf).startIndexMap by
      show ¬ (1 : Fin 2) ∈ ([0] : List (Fin 2)); decide)]
    unfold GatherDims.offCoord
    rw [dif_pos (show (1 : Fin 2) ∈ (rowGather N M B wf).sKept by
      rw [GatherDims.mem_sKept]; exact ⟨by show ¬ (1 : Fin 2) ∈ ([0] : List (Fin 2)); decide, List.not_mem_nil⟩)]
    simp only [Nat.zero_add]
    rfl

end Cert.GatherRows

end
-- ==== Proof.RefIdx.lean ====
/-
  The reference's index arithmetic and its pick along the last axis, read at an index.

  The row numbers of the first gather are 0, 1, ..., 2046: the clip into [0, 2046] and the wrap of negative numbers
  change none of them. The flat positions of the pick are (1023 + j - s) + 2047 * s at (s, j): all of them lie inside
  [0, 2096127], so the pick neither wraps a position nor replaces a picked value by the filler, and it reads the
  (head, batch) slab at exactly that position.
-/
import proofs.«117952_j88115549045052_2_alg».proof.Proof.Spec
import proofs.«117952_j88115549045052_2_alg».proof.Proof.RefTerm
import proofs.«117952_j88115549045052_2_alg».proof.Proof.Gen.ReferenceIdeal
import proofs.«117952_j88115549045052_2_alg».proof.Proof.LibGatherRows
import Idealize.ShloMosaic.Lib.Pipeline.Value
import Idealize.ShloMosaic.Lib.ReduceAll

noncomputable section

namespace Cert.ReferenceIdeal.RefIdx

open Idealize.ShloMosaic Idealize.ShloMosaic.ValueIdx Cert.ReferenceIdeal

/-! ## Signed reading of small words -/

/-- A natural number below 2^31, stored in a 32-bit word and read back signed, is itself. -/
theorem toInt_ofNat_of_lt (t : ℕ) (h : t < 2147483648) : (BitVec.ofNat 32 t).toInt = (t : ℤ) := by
  have ht : (BitVec.ofNat 32 t).toNat = t := by rw [BitVec.toNat_ofNat]; omega
  rw [BitVec.toInt_eq_toNat_of_lt (by rw [ht]; omega), ht]

/-- Such a word is not below 0 as a signed integer. -/
theorem cmpi_slt_zero (t : ℕ) (h : t < 2147483648) : IntOp.cmpi .slt (BitVec.ofNat 32 t) 0#32 = 0#1 := by
  show BitVec.ofBool ((BitVec.ofNat 32 t).slt 0#32) = 0#1
  have z0 : (0#32).toInt = 0 := by decide
  have hb : (BitVec.ofNat 32 t).slt 0#32 = false :=
    Bool.eq_false_iff.2 (fun h' => by rw [BitVec.slt_iff_toInt_lt, toInt_ofNat_of_lt t h, z0] at h'; omega)
  rw [hb]
  rfl

/-- Such a word is at least 0 as a signed integer. -/
theorem cmpi_sge_zero (t : ℕ) (h : t < 2147483648) : IntOp.cmpi .sge (BitVec.ofNat 32 t) 0#32 = 1#1 := by
  show BitVec.ofBool ((0#32).sle (BitVec.ofNat 32 t)) = 1#1
  have z0 : (0#32).toInt = 0 := by decide
  have hb : (0#32).sle (BitVec.ofNat 32 t) = true :=
    BitVec.sle_iff_toInt_le.2 (by rw [toInt_ofNat_of_lt t h, z0]; omega)
  rw [hb]
  rfl

/-- Two such words compare as signed integers the way the numbers compare. -/
theorem cmpi_sle_of_le (t c : ℕ) (hc : c < 2147483648) (htc : t ≤ c) :
    IntOp.cmpi .sle (BitVec.ofNat 32 t) (BitVec.ofNat 32 c) = 1#1 := by
  show BitVec.ofBool ((BitVec.ofNat 32 t).sle (BitVec.ofNat 32 c)) = 1#1
  have hb : (BitVec.ofNat 32 t).sle (BitVec.ofNat 32 c) = true :=
    BitVec.sle_iff_toInt_le.2 (by rw [toInt_ofNat_of_lt t (by omega), toInt_ofNat_of_lt c hc]; omega)
  rw [hb]
  rfl

/-! ## The flat positions of the pick -/

/-- The flat position at flat index s * 1024 + j is (1023 + j - s) + 2047 * s: the re-reading of the [1024, 1024]
    table as a flat array reads entry (s, j), whose three summands are the broadcast column numbers 1023 + j, the
    broadcast row numbers s, and the row numbers times 2047; none of the 32-bit operations wraps. -/
theorem relIdx_apply (s j : Fin 1024) :
    RefTerm.relIdx (F := Ideal) (ix1 (⟨s.val * 1024 + j.val, by have := s.isLt; have := j.isLt; omega⟩ : Fin 1048576))
      = BitVec.ofNat 32 (1023 + j.val - s.val + 2047 * s.val) := by
  unfold RefTerm.relIdx
  rw [shapeCast_apply _ _ _ (ix2 s j) (by rw [Shape.rowMajor_val_two, Shape.rowMajor_val_one]; rfl)]
  show (1023#32 + BitVec.ofNat 32 j.val) - BitVec.ofNat 32 s.val + BitVec.ofNat 32 s.val * 2047#32 = _
  have hs := s.isLt
  have hj := j.isLt
  apply BitVec.eq_of_toNat_eq
  simp only [BitVec.toNat_add, BitVec.toNat_sub, BitVec.toNat_mul, BitVec.toNat_ofNat]
  omega

/-! ## The row numbers of the first gather -/

/-- Row number r of the first gather is r itself: the clip into [0, 2046] and the wrap of negatives change nothing. -/
theorem rowIdx_apply (r : Fin 2047) :
    RefTerm.rowIdx (F := Ideal) (ix2 r (0 : Fin 1)) = BitVec.ofNat 32 r.val := by
  have hr := r.isLt
  have e0 : (BitVec.ofNat 32 r.val).toInt = (r.val : ℤ) := toInt_ofNat_of_lt _ (by omega)
  have z0 : (0#32).toInt = 0 := by decide
  have z1 : (2046#32).toInt = 2046 := by decide
  -- the lower clip: r is not below 0
  have hmax : IntOp.maxsi 0#32 (BitVec.ofNat 32 r.val) = BitVec.ofNat 32 r.val := by
    unfold IntOp.maxsi
    exact if_neg (fun h => by rw [BitVec.slt_iff_toInt_lt, e0, z0] at h; omega)
  -- the upper clip: r is not above 2046
  have hmin : IntOp.minsi 2046#32 (BitVec.ofNat 32 r.val) = BitVec.ofNat 32 r.val := by
    unfold IntOp.minsi
    exact if_neg (fun h => by rw [BitVec.slt_iff_toInt_lt, e0, z1] at h; omega)
  unfold RefTerm.rowIdx
  show Scalar.select (IntOp.cmpi .slt (IntOp.minsi 2046#32 (IntOp.maxsi 0#32 (BitVec.ofNat 32 r.val))) 0#32)
    (IntOp.addi (IntOp.minsi 2046#32 (IntOp.maxsi 0#32 (BitVec.ofNat 32 r.val))) 2047#32)
    (IntOp.minsi 2046#32 (IntOp.maxsi 0#32 (BitVec.ofNat 32 r.val))) = _
  -- the clipped number is not negative, so the wrap keeps it
  rw [hmax, hmin, cmpi_slt_zero _ (by omega), select_zero]

/-! ## A pick along the last axis of a rank-3 array -/

section LastAxisGather

variable {α : Type}

/-- The dimension numbers of a pick along the last axis of an array [A, B, N] at M positions stored as a column
    [M, 1]: the first two axes are the slice (whole), the last axis is collapsed and indexed. -/
abbrev lastGather (A B N M : ℕ)
    (wf : GatherDims.WF ⟨3, ![A, B, N]⟩ ⟨2, ![M, 1]⟩ ⟨3, ![A, B, M]⟩ [0, 1] [2] [] [2] [] 1 ![A, B, 1]) :
    GatherDims ⟨3, ![A, B, N]⟩ ⟨2, ![M, 1]⟩ ⟨3, ![A, B, M]⟩ where
  offsetDims := [0, 1]
  collapsedSliceDims := [2]
  operandBatchingDims := []
  startIndicesBatchingDims := []
  startIndexMap := [2]
  indexVectorDim := 1
  sliceSizes := ![A, B, 1]
  wf := wf

/-- The position on the last axis that result position p reads: its start index as a signed integer, clamped into
    [0, N - 1] (a gather clamps every start index so that the slice fits inside the operand). -/
def pos {N M w : ℕ} (hN : 0 < N) (idx : IVec ⟨2, ![M, 1]⟩ w) (p : Fin M) : Fin N :=
  ⟨min (idx (ix2 p (0 : Fin 1))).toInt.toNat (N - 1), by omega⟩

/-- A start index that already names a position t of the last axis is not moved by the clamp. -/
theorem pos_of_toInt {N M w : ℕ} (hN : 0 < N) (idx : IVec ⟨2, ![M, 1]⟩ w) (p : Fin M) (t : Fin N)
    (h : (idx (ix2 p (0 : Fin 1))).toInt = (t.val : ℤ)) : pos hN idx p = t := by
  refine Fin.ext ?_
  show min (idx (ix2 p (0 : Fin 1))).toInt.toNat (N - 1) = t.val
  rw [h]
  have := t.isLt
  simp only [Int.toNat_natCast]
  omega

/-- THE PICK READ AT (h, b, p): the operand at (h, b) and the clamped position of p. The first two coordinates pass
    through (they are the slice's own axes, whose start is 0); the last one is the start index of p. -/
theorem gather_last_apply {A B N M w : ℕ} (hN : 0 < N) (wf) (x : (⟨3, ![A, B, N]⟩ : Shape).Idx → α)
    (idx : IVec ⟨2, ![M, 1]⟩ w) (h : Fin A) (b : Fin B) (p : Fin M) :
    Host.gather (lastGather A B N M wf) x idx (ix3 h b p) = x (ix3 h b (pos hN idx p)) := by
  unfold Host.gather
  congr 1
  funext a
  refine Fin.ext ?_
  match a with
  | ⟨0, _⟩ =>
    show (lastGather A B N M wf).start (ix3 h b p) idx 0 + (lastGather A B N M wf).batchCoord (ix3 h b p) 0
      + (lastGather A B N M wf).offCoord (ix3 h b p) 0 = h.val
    rw [GatherDims.batchCoord_eq_zero _ _ _ List.not_mem_nil]
    unfold GatherDims.start
    rw [dif_neg (show ¬ (0 : Fin 3) ∈ (lastGather A B N M wf).startIndexMap by
      show ¬ (0 : Fin 3) ∈ ([2] : List (Fin 3)); decide)]
    unfold GatherDims.offCoord
    rw [dif_pos (show (0 : Fin 3) ∈ (lastGather A B N M wf).sKept by
      rw [GatherDims.mem_sKept]; exact ⟨by show ¬ (0 : Fin 3) ∈ ([2] : List (Fin 3)); decide, List.not_mem_nil⟩)]
    simp only [Nat.zero_add]
    rfl
  | ⟨1, _⟩ =>
    show (lastGather A B N M wf).start (ix3 h b p) idx 1 + (lastGather A B N M wf).batchCoord (ix3 h b p) 1
      + (lastGather A B N M wf).offCoord (ix3 h b p) 1 = b.val
    rw [GatherDims.batchCoord_eq_zero _ _ _ List.not_mem_nil]
    unfold GatherDims.start
    rw [dif_neg (show ¬ (1 : Fin 3) ∈ (lastGather A B N M wf).startIndexMap by
      show ¬ (1 : Fin 3) ∈ ([2] : List (Fin 3)); decide)]
    unfold GatherDims.offCoord
    rw [dif_pos (show (1 : Fin 3) ∈ (lastGather A B N M wf).sKept by
      rw [GatherDims.mem_sKept]; exact ⟨by show ¬ (1 : Fin 3) ∈ ([2] : List (Fin 3)); decide, List.not_mem_nil⟩)]
    simp only [Nat.zero_add]
    rfl
  | ⟨2, _⟩ =>
    show (lastGather A B N M wf).start (ix3 h b p) idx 2 + (lastGather A B N M wf).batchCoord (ix3 h b p) 2
      + (lastGather A B N M wf).offCoord (ix3 h b p) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastGather A B N M wf).startIndexMap from List.mem_singleton.mpr rfl)]
    have hsi : (lastGather A B N M wf).siIdx (ix3 h b p) ⟨List.idxOf (2 : Fin 3) (lastGather A B N M wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl

end LastAxisGather

/-! ## A conjunction over an axis that is all ones -/

section AllOnes

/-- A left fold by "and" over 1-bit words, started at 1 and meeting only 1s, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    show l.foldl (fun r n => IntOp.andi r (f n)) (IntOp.andi 1#1 (f a)) = 1#1
    rw [h a List.mem_cons_self, show IntOp.andi 1#1 1#1 = 1#1 from by decide]
    exact foldl_andi_one f l (fun n hn => h n (List.mem_cons_of_mem _ hn))

variable {s t u : Shape} {axes : List (Fin s.rank)}

/-- A reduction by "and" from the initial value 1 is 1 at j when every operand entry that reduces into j is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  exact foldl_andi_one x _ (fun i hi => hx i (by simpa using (List.mem_filter.1 hi).2))

end AllOnes

/-! ## The pick of the reference -/

/-- The position column of the pick: a negative position moved up by the axis length, laid out as a column. -/
def wrapped (idx : IVec S1048576 32) : IVec S1048576x1 32 :=
  broadcastInDim S1048576x1 ![0] Gen.bcast_S1048576_S1048576x1_0
    (select (cmpi .slt idx (broadcastInDim S1048576 ![] Gen.bcast_S_S1048576 (constantI S_ 32 0#32)))
      (addi idx (broadcastInDim S1048576 ![] Gen.bcast_S_S1048576 (constantI S_ 32 2096128#32))) idx)

/-- The mask of the pick before its conjunction over the unit axis: 1 where the position lies in [0, 2096127]. -/
def inRange (v : IVec S1048576x1 32) : IVec S1048576x1 1 :=
  andi (cmpi .sge v (broadcastInDim S1048576x1 ![] Gen.bcast_S_S1048576x1 (constantI S_ 32 0#32)))
    (cmpi .sle v (broadcastInDim S1048576x1 ![0, 1] Gen.bcast_S1x1_S1048576x1_0_1
      (broadcastInDim S1x1 ![1] Gen.bcast_S1_S1x1_1 (constantI S1 32 2096127#32))))

/-- The pick in terms of its position column and its mask. -/
theorem takeR_eq (x : (⟨S16x2x2096128, .f32⟩ : BufTy).Contents (Elt Ideal)) (idx : IVec S1048576 32) :
    RefTerm.takeR (F := Ideal) x idx =
      select (broadcastInDim S16x2x1048576 ![2] Gen.bcast_S1048576_S16x2x1048576_2
          (Host.reduce IntOp.andi (inRange (wrapped idx)) (constantI S_ 1 1#1) Gen.reducesTo_S1048576x1_S1048576_d1 Gen.h_S_))
        (Host.gather gather_S16x2x2096128_S1048576x1_S16x2x1048576_01_2_n_n_2_1_1621 x (wrapped idx))
        (broadcastInDim S16x2x1048576 ![] Gen.bcast_S_S16x2x1048576 (constant (F := Ideal) S_ .f32 0x7FC00000#32)) := rfl

/-- A position t inside [0, 2096127] is not moved by the wrap. -/
theorem wrapped_apply (idx : IVec S1048576 32) (p : Fin 1048576) (t : ℕ) (ht : t < 2096128)
    (hidx : idx (ix1 p) = BitVec.ofNat 32 t) : wrapped idx (ix2 p (0 : Fin 1)) = BitVec.ofNat 32 t := by
  unfold wrapped
  rw [broadcastInDim_apply _ _ _ _ (ix1 p) (fun a => by match a with | ⟨0, _⟩ => rfl)]
  show Scalar.select (IntOp.cmpi .slt (idx (ix1 p)) 0#32) (IntOp.addi (idx (ix1 p)) 2096128#32) (idx (ix1 p)) = _
  rw [hidx, cmpi_slt_zero _ (by omega), select_zero]

/-- A position t inside [0, 2096127] passes both range tests. -/
theorem inRange_apply (v : IVec S1048576x1 32) (i : S1048576x1.Idx) (t : ℕ) (ht : t < 2096128)
    (hv : v i = BitVec.ofNat 32 t) : inRange v i = 1#1 := by
  unfold inRange
  show IntOp.andi (IntOp.cmpi .sge (v i) 0#32) (IntOp.cmpi .sle (v i) 2096127#32) = 1#1
  rw [hv, cmpi_sge_zero _ (by omega), cmpi_sle_of_le t 2096127 (by omega) (by omega)]
  decide

/-- The pick at a place whose position is t, inside [0, 2096127], reads the operand at t: the position is not wrapped,
    the mask is 1 there, and the clamp of the gather does not move it. -/
theorem takeR_apply_of (x : (⟨S16x2x2096128, .f32⟩ : BufTy).Contents (Elt Ideal)) (idx : IVec S1048576 32)
    (h : Fin 16) (b : Fin 2) (p : Fin 1048576) (t : Fin 2096128) (hidx : idx (ix1 p) = BitVec.ofNat 32 t.val) :
    RefTerm.takeR (F := Ideal) x idx (ix3 h b p) = x (ix3 h b t) := by
  have ht := t.isLt
  have hw : wrapped idx (ix2 p (0 : Fin 1)) = BitVec.ofNat 32 t.val := wrapped_apply idx p t.val ht hidx
  -- the conjunction over the unit axis at p is the mask's entry (p, 0)
  have hm : Host.reduce IntOp.andi (inRange (wrapped idx)) (constantI S_ 1 1#1) Gen.reducesTo_S1048576x1_S1048576_d1
      Gen.h_S_ (ix1 p) = 1#1 := by
    refine reduce_andi_of_all _ _ _ _ _ rfl (fun i hi => ?_)
    have h0 : (i 0).val = p.val := by
      have e := Shape.ReducesTo.drop_apply_val_of_eq Gen.reducesTo_S1048576x1_S1048576_d1 i 0 0
      rw [hi] at e
      exact e.symm
    have hi' : i = ix2 p (0 : Fin 1) := by
      funext a
      match a with
      | ⟨0, _⟩ => exact Fin.ext h0
      | ⟨1, _⟩ => exact Fin.ext (by have := idx2_lt1 i; show (i 1).val = 0; omega)
    rw [hi']
    exact inRange_apply _ _ t.val ht hw
  rw [takeR_eq, select_apply,
    broadcastInDim_apply _ _ _ _ (ix1 p) (fun a => by match a with | ⟨0, _⟩ => rfl), hm, select_one]
  exact (gather_last_apply (N := 2096128) (by decide) Gen.gather_S16x2x2096128_S1048576x1_S16x2x1048576_01_2_n_n_2_1_1621_wf x (wrapped idx) h b p).trans
    (by rw [pos_of_toInt _ _ _ t (by rw [hw]; exact toInt_ofNat_of_lt _ (by omega))])

/-- The pick at flat position s * 1024 + j reads flat position (1023 + j - s) + 2047 * s of the (head, batch) slab: that
    position is inside [0, 2096127], so no wrap and no filler. -/
theorem take_rel_apply (x : (⟨S16x2x2096128, .f32⟩ : BufTy).Contents (Elt Ideal)) (h : Fin 16) (b : Fin 2) (s j : Fin 1024) :
    RefTerm.takeR (F := Ideal) x (RefTerm.relIdx (F := Ideal))
        (ix3 h b (⟨s.val * 1024 + j.val, by have := s.isLt; have := j.isLt; omega⟩ : Fin 1048576))
      = x (ix3 h b (⟨1023 + j.val - s.val + 2047 * s.val, by have := s.isLt; have := j.isLt; omega⟩ : Fin 2096128)) :=
  takeR_apply_of x _ h b _ _ (relIdx_apply s j)

end Cert.ReferenceIdeal.RefIdx

end
-- ==== Proof.RefRead.lean ====
/-
  The reference's result, read index by index, is the relative-position score.

  Each stage of the reference is read at an explicit index: the projected position rows are the position table times
  the dense matrix (the fetched rows are the table's own rows, the row numbers being 0, 1, ..., 2046); cutting into
  heads and putting the head first only renames the index; the query re-read as 16 heads of 2048 rows is the raw
  re-reading; the head-by-head contraction over the 64 features is the score; and the final pick at the flat position
  (1023 + j - s) + 2047 * s of the (head, batch) slab is the score of query row b * 1024 + s against relative
  position 1023 + j - s.
-/
import proofs.«117952_j88115549045052_2_alg».proof.Proof.Spec
import proofs.«117952_j88115549045052_2_alg».proof.Proof.RefTerm
import proofs.«117952_j88115549045052_2_alg».proof.Proof.Gen.ReferenceIdeal
import proofs.«117952_j88115549045052_2_alg».proof.Proof.LibGatherRows
import Idealize.ShloMosaic.PureOps.Ideal.Laws
import Idealize.ShloMosaic.Lib.Pipeline.Value
import Idealize.ShloMosaic.Lib.ValueIdx

noncomputable section

namespace Cert.ReferenceIdeal.RefRead

open Idealize.ShloMosaic Idealize.ShloMosaic.ValueIdx Cert.ReferenceIdeal

/-- The query re-read as 16 heads of 2048 rows, at (h, n, d), is the raw re-reading of the query array. -/
theorem qR_apply (q : (⟨S2x16x1024x64, .f32⟩ : BufTy).Contents (Elt Ideal)) (h : Fin 16) (n : Fin 2048) (d : Fin 64) :
    RefTerm.qR (F := Ideal) q (ix3 h n d) = Cert.RelScore.q3 q h n d := by
  have hh := h.isLt
  have hn := n.isLt
  have hd := d.isLt
  unfold RefTerm.qR Cert.RelScore.q3
  refine shapeCast_apply _ _ _ _ ?_
  rw [Shape.rowMajor_val_four, Shape.rowMajor_val_three]
  show ((((h.val * 2 + n.val / 1024) / 16) * 16 + (h.val * 2 + n.val / 1024) % 16) * 1024 + n.val % 1024) * 64 + d.val
    = (h.val * 2048 + n.val) * 64 + d.val
  omega

/-- The row numbers of the first gather name the table's own rows: the row that result row r reads is r. -/
theorem row_rowIdx (hrow : ∀ r : Fin 2047, RefTerm.rowIdx (F := Ideal) (ix2 r (0 : Fin 1)) = BitVec.ofNat 32 r.val)
    (r : Fin 2047) :
    Cert.GatherRows.row (N := 2047) (by omega) (RefTerm.rowIdx (F := Ideal)) r = r := by
  refine Cert.GatherRows.row_of_toInt _ _ _ _ ?_
  rw [hrow r]
  have hr := r.isLt
  rw [BitVec.toInt_eq_toNat_of_lt (by rw [BitVec.toNat_ofNat]; omega), BitVec.toNat_ofNat]
  omega

/-- The projected position rows at (r, e): row r of the position table times column e of the dense matrix. -/
theorem projR_apply (hrow : ∀ r : Fin 2047, RefTerm.rowIdx (F := Ideal) (ix2 r (0 : Fin 1)) = BitVec.ofNat 32 r.val)
    (pos : (⟨S2047x1024, .f32⟩ : BufTy).Contents (Elt Ideal)) (w : (⟨S1024x1024, .f32⟩ : BufTy).Contents (Elt Ideal))
    (r : Fin 2047) (e : Fin 1024) :
    RefTerm.projR (F := Ideal) pos w (ix2 r e) = Cert.RelScore.proj pos w r e := by
  unfold RefTerm.projR Cert.RelScore.proj
  simp only [Host.dotGeneral]
  rw [Ideal.dotGeneral_apply,
    ← Equiv.sum_comp (contrEquiv1 dot_S2047x1024_S1024x1024_S2047x1024_1_0_0_1_n_n 1024 rfl rfl).symm]
  refine Finset.sum_congr rfl fun c _ => ?_
  have c2 := contrEquiv1_symm_val dot_S2047x1024_S1024x1024_S2047x1024_1_0_0_1_n_n 1024 rfl rfl c
  have l2 : dot_S2047x1024_S1024x1024_S2047x1024_1_0_0_1_n_n.lhsIdx (ix2 r e)
      ((contrEquiv1 dot_S2047x1024_S1024x1024_S2047x1024_1_0_0_1_n_n 1024 rfl rfl).symm c) = ix2 r c := by
    funext ax; apply Fin.ext
    match ax with
    | ⟨0, _⟩ => rfl
    | ⟨1, _⟩ =>
      exact (DotDims.lhsIdx_val_of_single dot_S2047x1024_S1024x1024_S2047x1024_1_0_0_1_n_n (cl := 1) rfl _ _).trans c2
  have r2 : dot_S2047x1024_S1024x1024_S2047x1024_1_0_0_1_n_n.rhsIdx (ix2 r e)
      ((contrEquiv1 dot_S2047x1024_S1024x1024_S2047x1024_1_0_0_1_n_n 1024 rfl rfl).symm c) = ix2 c e := by
    funext ax; apply Fin.ext
    match ax with
    | ⟨0, _⟩ =>
      exact (DotDims.rhsIdx_val_of_single dot_S2047x1024_S1024x1024_S2047x1024_1_0_0_1_n_n (cr := 0) rfl _ _).trans c2
    | ⟨1, _⟩ => rfl
  rw [l2, r2]
  congr 1
  refine (Cert.GatherRows.gather_rows_apply (N := 2047) (M := 2047) (B := 1024) (by omega) _ pos
    (RefTerm.rowIdx (F := Ideal)) r c).trans ?_
  rw [row_rowIdx hrow r]

/-- The projected rows cut into heads, head first, at (h, r, d): feature h * 64 + d of the projected row r. -/
theorem embT_apply (hrow : ∀ r : Fin 2047, RefTerm.rowIdx (F := Ideal) (ix2 r (0 : Fin 1)) = BitVec.ofNat 32 r.val)
    (pos : (⟨S2047x1024, .f32⟩ : BufTy).Contents (Elt Ideal)) (w : (⟨S1024x1024, .f32⟩ : BufTy).Contents (Elt Ideal))
    (h : Fin 16) (r : Fin 2047) (d : Fin 64) :
    RefTerm.embT (F := Ideal) pos w (ix3 h r d)
      = Cert.RelScore.proj pos w r (⟨h.val * 64 + d.val, by have := h.isLt; have := d.isLt; omega⟩ : Fin 1024) := by
  have hh := h.isLt
  have hr := r.isLt
  have hd := d.isLt
  unfold RefTerm.embT
  -- the transpose [1, 0, 2]: (h, r, d) of the head-first array is (r, h, d) of the row-first one
  refine (transpose_apply _ _ _ _ (ix3 r h d)
    (fun b => match b with | ⟨0, _⟩ => rfl | ⟨1, _⟩ => rfl | ⟨2, _⟩ => rfl)).trans ?_
  -- the cut into heads: (r, h, d) is (r, h * 64 + d) of the matrix
  refine (shapeCast_apply _ _ _ (ix2 r (⟨h.val * 64 + d.val, by omega⟩ : Fin 1024))
    (by rw [Shape.rowMajor_val_two, Shape.rowMajor_val_three]
        show r.val * 1024 + (h.val * 64 + d.val) = (r.val * 16 + h.val) * 64 + d.val
        omega)).trans ?_
  exact projR_apply hrow pos w r _

/-- The scores at (h, n, r): query row n of head h against the projected row r, contracted over the 64 features. -/
theorem scoreR_apply (hrow : ∀ r : Fin 2047, RefTerm.rowIdx (F := Ideal) (ix2 r (0 : Fin 1)) = BitVec.ofNat 32 r.val)
    (q : (⟨S2x16x1024x64, .f32⟩ : BufTy).Contents (Elt Ideal)) (pos : (⟨S2047x1024, .f32⟩ : BufTy).Contents (Elt Ideal))
    (w : (⟨S1024x1024, .f32⟩ : BufTy).Contents (Elt Ideal)) (h : Fin 16) (n : Fin 2048) (r : Fin 2047) :
    RefTerm.scoreR (F := Ideal) q pos w (ix3 h n r) = Cert.RelScore.score q pos w h n r := by
  unfold RefTerm.scoreR Cert.RelScore.score
  simp only [Host.dotGeneral]
  rw [Ideal.dotGeneral_apply,
    ← Equiv.sum_comp (contrEquiv1 dot_S16x2048x64_S16x2047x64_S16x2048x2047_2_2_1_1_0_0 64 rfl rfl).symm]
  refine Finset.sum_congr rfl fun c _ => ?_
  have c3 := contrEquiv1_symm_val dot_S16x2048x64_S16x2047x64_S16x2048x2047_2_2_1_1_0_0 64 rfl rfl c
  have l3 : dot_S16x2048x64_S16x2047x64_S16x2048x2047_2_2_1_1_0_0.lhsIdx (ix3 h n r)
      ((contrEquiv1 dot_S16x2048x64_S16x2047x64_S16x2048x2047_2_2_1_1_0_0 64 rfl rfl).symm c) = ix3 h n c := by
    funext ax; apply Fin.ext
    match ax with
    | ⟨0, _⟩ => rfl
    | ⟨1, _⟩ => rfl
    | ⟨2, _⟩ =>
      exact (DotDims.lhsIdx_val_of_single dot_S16x2048x64_S16x2047x64_S16x2048x2047_2_2_1_1_0_0 (cl := 2) rfl _ _).trans c3
  have r3 : dot_S16x2048x64_S16x2047x64_S16x2048x2047_2_2_1_1_0_0.rhsIdx (ix3 h n r)
      ((contrEquiv1 dot_S16x2048x64_S16x2047x64_S16x2048x2047_2_2_1_1_0_0 64 rfl rfl).symm c) = ix3 h r c := by
    funext ax; apply Fin.ext
    match ax with
    | ⟨0, _⟩ => rfl
    | ⟨1, _⟩ => rfl
    | ⟨2, _⟩ =>
      exact (DotDims.rhsIdx_val_of_single dot_S16x2048x64_S16x2047x64_S16x2048x2047_2_2_1_1_0_0 (cr := 2) rfl _ _).trans c3
  rw [l3, r3, qR_apply, embT_apply hrow]

/-- The reference's result at (u, v, s, j): with head (u * 16 + v) / 2 and batch (u * 16 + v) % 2, the shifted score. The
    outer re-reading sends (u, v, s, j) to position s * 1024 + j of the (head, batch) slab; the pick reads the slab of
    scores at the flat position (1023 + j - s) + 2047 * s, which is row batch * 1024 + s, column 1023 + j - s of the head's
    score matrix. -/
theorem refOut_apply
    (hrow : ∀ r : Fin 2047, RefTerm.rowIdx (F := Ideal) (ix2 r (0 : Fin 1)) = BitVec.ofNat 32 r.val)
    (htake : ∀ (x : (⟨S16x2x2096128, .f32⟩ : BufTy).Contents (Elt Ideal)) (h : Fin 16) (b : Fin 2) (s j : Fin 1024),
      RefTerm.takeR (F := Ideal) x (RefTerm.relIdx (F := Ideal))
          (ix3 h b (⟨s.val * 1024 + j.val, by have := s.isLt; have := j.isLt; omega⟩ : Fin 1048576))
        = x (ix3 h b (⟨1023 + j.val - s.val + 2047 * s.val, by have := s.isLt; have := j.isLt; omega⟩ : Fin 2096128)))
    (q : (⟨S2x16x1024x64, .f32⟩ : BufTy).Contents (Elt Ideal)) (pos : (⟨S2047x1024, .f32⟩ : BufTy).Contents (Elt Ideal))
    (w : (⟨S1024x1024, .f32⟩ : BufTy).Contents (Elt Ideal)) (u : Fin 2) (v : Fin 16) (s j : Fin 1024) :
    RefTerm.refOut (F := Ideal) q pos w (ix4 u v s j)
      = Cert.RelScore.shifted q pos w
          (⟨(u.val * 16 + v.val) / 2, by have := u.isLt; have := v.isLt; omega⟩ : Fin 16)
          (⟨(u.val * 16 + v.val) % 2, by omega⟩ : Fin 2) s j := by
  have hu := u.isLt
  have hv := v.isLt
  have hs := s.isLt
  have hj := j.isLt
  unfold RefTerm.refOut Cert.RelScore.shifted
  -- the outer re-reading: (u, v, s, j) is position s * 1024 + j of the slab of head (u * 16 + v) / 2, batch (u * 16 + v) % 2
  refine (shapeCast_apply _ _ _
    (ix3 (⟨(u.val * 16 + v.val) / 2, by omega⟩ : Fin 16) (⟨(u.val * 16 + v.val) % 2, by omega⟩ : Fin 2)
      (⟨s.val * 1024 + j.val, by omega⟩ : Fin 1048576))
    (by rw [Shape.rowMajor_val_three, Shape.rowMajor_val_four]
        show (((u.val * 16 + v.val) / 2) * 2 + (u.val * 16 + v.val) % 2) * 1048576 + (s.val * 1024 + j.val)
          = ((u.val * 16 + v.val) * 1024 + s.val) * 1024 + j.val
        omega)).trans ?_
  -- the pick
  refine (htake _ _ _ s j).trans ?_
  -- the slab re-reading: flat position (1023 + j - s) + 2047 * s of the slab is row batch * 1024 + s, column 1023 + j - s
  refine (shapeCast_apply _ _ _
    (ix3 (⟨(u.val * 16 + v.val) / 2, by omega⟩ : Fin 16)
      (⟨(u.val * 16 + v.val) % 2 * 1024 + s.val, by omega⟩ : Fin 2048)
      (⟨1023 + j.val - s.val, by omega⟩ : Fin 2047))
    (by rw [Shape.rowMajor_val_three, Shape.rowMajor_val_three]
        show (((u.val * 16 + v.val) / 2) * 2048 + ((u.val * 16 + v.val) % 2 * 1024 + s.val)) * 2047 + (1023 + j.val - s.val)
          = (((u.val * 16 + v.val) / 2) * 2 + (u.val * 16 + v.val) % 2) * 2096128 + (1023 + j.val - s.val + 2047 * s.val)
        omega)).trans ?_
  exact scoreR_apply hrow q pos w _ _ _

/-- THE REFERENCE'S RESULT IS THE RELATIVE-POSITION SCORE, as whole arrays. The two hypotheses are the integer facts of
    the two index tables: the row numbers of the first gather are 0, 1, ..., 2046, and the pick along the last axis
    reads the flat position (1023 + j - s) + 2047 * s at (s, j). -/
theorem refOut_eq
    (hrow : ∀ r : Fin 2047, RefTerm.rowIdx (F := Ideal) (ix2 r (0 : Fin 1)) = BitVec.ofNat 32 r.val)
    (htake : ∀ (x : (⟨S16x2x2096128, .f32⟩ : BufTy).Contents (Elt Ideal)) (h : Fin 16) (b : Fin 2) (s j : Fin 1024),
      RefTerm.takeR (F := Ideal) x (RefTerm.relIdx (F := Ideal))
          (ix3 h b (⟨s.val * 1024 + j.val, by have := s.isLt; have := j.isLt; omega⟩ : Fin 1048576))
        = x (ix3 h b (⟨1023 + j.val - s.val + 2047 * s.val, by have := s.isLt; have := j.isLt; omega⟩ : Fin 2096128)))
    (q : (⟨S2x16x1024x64, .f32⟩ : BufTy).Contents (Elt Ideal)) (pos : (⟨S2047x1024, .f32⟩ : BufTy).Contents (Elt Ideal))
    (w : (⟨S1024x1024, .f32⟩ : BufTy).Contents (Elt Ideal)) :
    RefTerm.refOut (F := Ideal) q pos w = Cert.RelScore.G q pos w := by
  funext i
  obtain ⟨u, v, s, j, rfl⟩ : ∃ (u : Fin 2) (v : Fin 16) (s j : Fin 1024), i = ix4 u v s j :=
    ⟨i 0, i 1, i 2, i 3, eq_ix4 i⟩
  exact refOut_apply hrow htake q pos w u v s j

end Cert.ReferenceIdeal.RefRead

end
-- ==== Proof.lean ====
/-
  The certificate of the relative-position score kernel against its reference.

  Both programs compute, for head h, batch b, query position s and key position j, the contraction over 64 features of
  query row b * 1024 + s of head h with the projected position row 1023 + j - s of that head, the projection being
  the position table times the dense matrix. The kernel program pads the table with one zero row in front, forms
  both products in two pipelined matrix-product regions and obtains the shift by re-reading the scores (drop 1024
  leading entries of a slab of 1024 x 2048, re-read as 1024 x 2047, keep 1024 columns); the reference gathers the
  rows, forms the products with two general dot products and picks the shifted entries by computed flat positions.
  Index by index the two are the same sums in the same order, so no finiteness is used: the zero row is never read,
  and every picked position lies inside its slab.

  The frames of the two kernel programs are the generated ones; the reference's frame is its run with the result
  dropped; nothing was rewritten by the idealization, so the preservation claim is trivial.
-/
import proofs.«117952_j88115549045052_2_alg».proof.Defs
import proofs.«117952_j88115549045052_2_alg».proof.Proof.Gen.Kernel
import proofs.«117952_j88115549045052_2_alg».proof.Proof.Gen.Kernel.Frame
import proofs.«117952_j88115549045052_2_alg».proof.Proof.Gen.KernelIdeal
import proofs.«117952_j88115549045052_2_alg».proof.Proof.Gen.KernelIdeal.Frame
import proofs.«117952_j88115549045052_2_alg».proof.Proof.Gen.ReferenceIdeal
import proofs.«117952_j88115549045052_2_alg».proof.Proof.Gen.Pre_finite_inputs
import proofs.«117952_j88115549045052_2_alg».proof.Proof.Spec
import proofs.«117952_j88115549045052_2_alg».proof.Proof.KRun
import proofs.«117952_j88115549045052_2_alg».proof.Proof.KHost
import proofs.«117952_j88115549045052_2_alg».proof.Proof.Reg0
import proofs.«117952_j88115549045052_2_alg».proof.Proof.Reg1
import proofs.«117952_j88115549045052_2_alg».proof.Proof.RefRun
import proofs.«117952_j88115549045052_2_alg».proof.Proof.RefIdx
import proofs.«117952_j88115549045052_2_alg».proof.Proof.RefRead
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both idealized programs end with the specification of the (agreeing) arguments in their result buffers. -/
theorem algebraic : Cert.algebraic_KernelIdeal_ReferenceIdeal := by
  intro m ρ m' ρ' _ hagree
  refine ⟨fun c => Cert.RelScore.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.KHost.out_eq m ρ c Cert.KernelIdeal.Reg0.arr Cert.KernelIdeal.Reg1.arr), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2]
    exact Cert.ReferenceIdeal.RefRead.refOut_eq Cert.ReferenceIdeal.RefIdx.rowIdx_apply
      Cert.ReferenceIdeal.RefIdx.take_rel_apply _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
